-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x256x256 : Shape := ⟨4, ![64, 3, 256, 256]⟩
abbrev S64x9x256x256 : Shape := ⟨4, ![64, 9, 256, 256]⟩
abbrev S_ : Shape := ⟨0, ![]⟩

class Facts : Prop where
  bcast_S_S64x3x256x256 : S_.BroadcastsInDim S64x3x256x256 (![] : Fin 0 → Fin S64x3x256x256.rank)
  reducesTo_S64x3x256x256_S_d0_1_2_3 : S64x3x256x256.ReducesTo [0, 1, 2, 3] S_
  h_S_ : 0 < S_.numel
  bcast_S_S64x9x256x256 : S_.BroadcastsInDim S64x9x256x256 (![] : Fin 0 → Fin S64x9x256x256.rank)
  reducesTo_S64x9x256x256_S_d0_1_2_3 : S64x9x256x256.ReducesTo [0, 1, 2, 3] S_

variable [Facts]

def fn {F : FTy → Type} [FloatOps F] (main_arg0 : FVec F S64x3x256x256 .f32) (main_arg1 : FVec F S64x9x256x256 .f32) : IVec S_ 1 :=
  let main_v0 : FVec F S64x3x256x256 .f32 := Host.absf main_arg0
  let main_cst : FVec F S_ .f32 := constant S_ .f32 0x7F800000#32
  let main_v1 : FVec F S64x3x256x256 .f32 := broadcastInDim S64x3x256x256 ![] bcast_S_S64x3x256x256 main_cst
  let main_v2 : IVec S64x3x256x256 1 := cmpf .olt main_v0 main_v1
  let main_c : IVec S_ 1 := constantI S_ 1 1#1
  let main_v3 : IVec S_ 1 := (fun x v => Host.reduce IntOp.andi x v reducesTo_S64x3x256x256_S_d0_1_2_3 h_S_) main_v2 main_c
  let main_v4 : FVec F S64x9x256x256 .f32 := Host.absf main_arg1
  let main_cst_0 : FVec F S_ .f32 := constant S_ .f32 0x7F800000#32
  let main_v5 : FVec F S64x9x256x256 .f32 := broadcastInDim S64x9x256x256 ![] bcast_S_S64x9x256x256 main_cst_0
  let main_v6 : IVec S64x9x256x256 1 := cmpf .olt main_v4 main_v5
  let main_c_1 : IVec S_ 1 := constantI S_ 1 1#1
  let main_v7 : IVec S_ 1 := (fun x v => Host.reduce IntOp.andi x v reducesTo_S64x9x256x256_S_d0_1_2_3 h_S_) main_v6 main_c_1
  let main_v8 : IVec S_ 1 := andi main_v3 main_v7
  main_v8
-- ==== Kernel.lean ====
abbrev S64x3x256x256 : Shape := ⟨4, ![64, 3, 256, 256]⟩
abbrev S64x9x256x256 : Shape := ⟨4, ![64, 9, 256, 256]⟩
abbrev S_ : Shape := ⟨0, ![]⟩
abbrev S64x3x1x256 : Shape := ⟨4, ![64, 3, 1, 256]⟩
abbrev S64x3x257x256 : Shape := ⟨4, ![64, 3, 257, 256]⟩
abbrev S64x3x258x256 : Shape := ⟨4, ![64, 3, 258, 256]⟩
abbrev S64x3x258x1 : Shape := ⟨4, ![64, 3, 258, 1]⟩
abbrev S64x3x258x257 : Shape := ⟨4, ![64, 3, 258, 257]⟩
abbrev S64x3x258x258 : Shape := ⟨4, ![64, 3, 258, 258]⟩
abbrev S2x3x258x258 : Shape := ⟨4, ![2, 3, 258, 258]⟩
abbrev S2x9x256x256 : Shape := ⟨4, ![2, 9, 256, 256]⟩
abbrev S2x3x256x256 : Shape := ⟨4, ![2, 3, 256, 256]⟩
abbrev S2x256x256 : Shape := ⟨3, ![2, 256, 256]⟩
abbrev S2x1x256x256 : Shape := ⟨4, ![2, 1, 256, 256]⟩

abbrev nBuf : Space → Nat
  | .hbm => 20
  | .vmem => 6
  | .smem => 0
  | _ => 0

abbrev bufTy : (tb : Table) → Fin (tcTables nBuf tb) → BufTy
  | .hbm, ⟨0, _⟩ => ⟨S64x3x256x256, .f32⟩
  | .hbm, ⟨1, _⟩ => ⟨S64x9x256x256, .f32⟩
  | .hbm, ⟨2, _⟩ => ⟨S_, .i32⟩
  | .hbm, ⟨3, _⟩ => ⟨S64x3x1x256, .f32⟩
  | .hbm, ⟨4, _⟩ => ⟨S64x3x1x256, .f32⟩
  | .hbm, ⟨5, _⟩ => ⟨S64x3x1x256, .f32⟩
  | .hbm, ⟨6, _⟩ => ⟨S64x3x257x256, .f32⟩
  | .hbm, ⟨7, _⟩ => ⟨S64x3x1x256, .f32⟩
  | .hbm, ⟨8, _⟩ => ⟨S64x3x1x256, .f32⟩
  | .hbm, ⟨9, _⟩ => ⟨S64x3x1x256, .f32⟩
  | .hbm, ⟨10, _⟩ => ⟨S64x3x258x256, .f32⟩
  | .hbm, ⟨11, _⟩ => ⟨S64x3x258x1, .f32⟩
  | .hbm, ⟨12, _⟩ => ⟨S64x3x258x1, .f32⟩
  | .hbm, ⟨13, _⟩ => ⟨S64x3x258x1, .f32⟩
  | .hbm, ⟨14, _⟩ => ⟨S64x3x258x257, .f32⟩
  | .hbm, ⟨15, _⟩ => ⟨S64x3x258x1, .f32⟩
  | .hbm, ⟨16, _⟩ => ⟨S64x3x258x1, .f32⟩
  | .hbm, ⟨17, _⟩ => ⟨S64x3x258x1, .f32⟩
  | .hbm, ⟨18, _⟩ => ⟨S64x3x258x258, .f32⟩
  | .hbm, ⟨19, _⟩ => ⟨S64x3x256x256, .f32⟩
  | .local _ .vmem, ⟨0, _⟩ => ⟨S2x3x258x258, .f32⟩
  | .local _ .vmem, ⟨1, _⟩ => ⟨S2x3x258x258, .f32⟩
  | .local _ .vmem, ⟨2, _⟩ => ⟨S2x9x256x256, .f32⟩
  | .local _ .vmem, ⟨3, _⟩ => ⟨S2x9x256x256, .f32⟩
  | .local _ .vmem, ⟨4, _⟩ => ⟨S2x3x256x256, .f32⟩
  | .local _ .vmem, ⟨5, _⟩ => ⟨S2x3x256x256, .f32⟩
  | _, _ => ⟨S64x3x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_v9 : Ref sig .tc := ⟨.hbm, 12, rfl⟩
abbrev main_call0_v10 : Ref sig .tc := ⟨.hbm, 13, rfl⟩
abbrev main_call0_v11 : Ref sig .tc := ⟨.hbm, 14, rfl⟩
abbrev main_call0_v12 : Ref sig .tc := ⟨.hbm, 15, rfl⟩
abbrev main_call0_v13 : Ref sig .tc := ⟨.hbm, 16, rfl⟩
abbrev main_call0_v14 : Ref sig .tc := ⟨.hbm, 17, rfl⟩
abbrev main_v0 : Ref sig .tc := ⟨.hbm, 18, rfl⟩
abbrev main_v1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x3x258x258 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x9x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x3x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S64x3x256x256_S64x3x1x256_0_0_0_0 : S64x3x256x256.Slices ![0, 0, 0, 0] S64x3x1x256
  slices_S64x3x256x256_S64x3x1x256_0_0_1_0 : S64x3x256x256.Slices ![0, 0, 1, 0] S64x3x1x256
  concatenates_S64x3x1x256_S64x3x256x256_S64x3x257x256_d2 : Shape.Concatenates [S64x3x1x256, S64x3x256x256] S64x3x257x256 2
  slices_S64x3x257x256_S64x3x1x256_0_0_256_0 : S64x3x257x256.Slices ![0, 0, 256, 0] S64x3x1x256
  slices_S64x3x257x256_S64x3x1x256_0_0_255_0 : S64x3x257x256.Slices ![0, 0, 255, 0] S64x3x1x256
  concatenates_S64x3x257x256_S64x3x1x256_S64x3x258x256_d2 : Shape.Concatenates [S64x3x257x256, S64x3x1x256] S64x3x258x256 2
  slices_S64x3x258x256_S64x3x258x1_0_0_0_0 : S64x3x258x256.Slices ![0, 0, 0, 0] S64x3x258x1
  slices_S64x3x258x256_S64x3x258x1_0_0_0_1 : S64x3x258x256.Slices ![0, 0, 0, 1] S64x3x258x1
  concatenates_S64x3x258x1_S64x3x258x256_S64x3x258x257_d3 : Shape.Concatenates [S64x3x258x1, S64x3x258x256] S64x3x258x257 3
  slices_S64x3x258x257_S64x3x258x1_0_0_0_256 : S64x3x258x257.Slices ![0, 0, 0, 256] S64x3x258x1
  slices_S64x3x258x257_S64x3x258x1_0_0_0_255 : S64x3x258x257.Slices ![0, 0, 0, 255] S64x3x258x1
  concatenates_S64x3x258x257_S64x3x258x1_S64x3x258x258_d3 : Shape.Concatenates [S64x3x258x257, S64x3x258x1] S64x3x258x258 3
  inb_S2x9x256x256_S2x9x256x256_0_0_0_0 : ∀ a, (![0, 0, 0, 0] : Fin 4 → Nat) a + S2x9x256x256.size a ≤ S2x9x256x256.size a
  h_S2x9x256x256 : 0 < S2x9x256x256.numel
  reduces_S2x9x256x256_S2x256x256 : S2x9x256x256.Reduces [1] S2x256x256
  shapeCasts_S2x256x256_S2x1x256x256 : S2x256x256.ShapeCasts S2x1x256x256
  broadcasts_S2x1x256x256_S2x9x256x256 : S2x1x256x256.Broadcasts S2x9x256x256
  inb_S2x3x258x258_S2x3x258x258_0_0_0_0 : ∀ a, (![0, 0, 0, 0] : Fin 4 → Nat) a + S2x3x258x258.size a ≤ S2x3x258x258.size a
  h_S2x3x258x258 : 0 < S2x3x258x258.numel
  shapeCasts_S2x3x258x258_S2x3x258x258 : S2x3x258x258.ShapeCasts S2x3x258x258
  slices_S2x3x258x258_o0_0_0_0_S2x3x256x256 : S2x3x258x258.Slices ![0, 0, 0, 0] S2x3x256x256
  slices_S2x9x256x256_o0_0_0_0_S2x1x256x256 : S2x9x256x256.Slices ![0, 0, 0, 0] S2x1x256x256
  broadcasts_S2x1x256x256_S2x3x256x256 : S2x1x256x256.Broadcasts S2x3x256x256
  slices_S2x3x258x258_o0_0_0_1_S2x3x256x256 : S2x3x258x258.Slices ![0, 0, 0, 1] S2x3x256x256
  slices_S2x9x256x256_o0_1_0_0_S2x1x256x256 : S2x9x256x256.Slices ![0, 1, 0, 0] S2x1x256x256
  slices_S2x3x258x258_o0_0_0_2_S2x3x256x256 : S2x3x258x258.Slices ![0, 0, 0, 2] S2x3x256x256
  slices_S2x9x256x256_o0_2_0_0_S2x1x256x256 : S2x9x256x256.Slices ![0, 2, 0, 0] S2x1x256x256
  slices_S2x3x258x258_o0_0_1_0_S2x3x256x256 : S2x3x258x258.Slices ![0, 0, 1, 0] S2x3x256x256
  slices_S2x9x256x256_o0_3_0_0_S2x1x256x256 : S2x9x256x256.Slices ![0, 3, 0, 0] S2x1x256x256
  slices_S2x3x258x258_o0_0_1_1_S2x3x256x256 : S2x3x258x258.Slices ![0, 0, 1, 1] S2x3x256x256
  slices_S2x9x256x256_o0_4_0_0_S2x1x256x256 : S2x9x256x256.Slices ![0, 4, 0, 0] S2x1x256x256
  slices_S2x3x258x258_o0_0_1_2_S2x3x256x256 : S2x3x258x258.Slices ![0, 0, 1, 2] S2x3x256x256
  slices_S2x9x256x256_o0_5_0_0_S2x1x256x256 : S2x9x256x256.Slices ![0, 5, 0, 0] S2x1x256x256
  slices_S2x3x258x258_o0_0_2_0_S2x3x256x256 : S2x3x258x258.Slices ![0, 0, 2, 0] S2x3x256x256
  slices_S2x9x256x256_o0_6_0_0_S2x1x256x256 : S2x9x256x256.Slices ![0, 6, 0, 0] S2x1x256x256
  slices_S2x3x258x258_o0_0_2_1_S2x3x256x256 : S2x3x258x258.Slices ![0, 0, 2, 1] S2x3x256x256
  slices_S2x9x256x256_o0_7_0_0_S2x1x256x256 : S2x9x256x256.Slices ![0, 7, 0, 0] S2x1x256x256
  slices_S2x3x258x258_o0_0_2_2_S2x3x256x256 : S2x3x258x258.Slices ![0, 0, 2, 2] S2x3x256x256
  slices_S2x9x256x256_o0_8_0_0_S2x1x256x256 : S2x9x256x256.Slices ![0, 8, 0, 0] S2x1x256x256
  inb_S2x3x256x256_S2x3x256x256_0_0_0_0 : ∀ a, (![0, 0, 0, 0] : Fin 4 → Nat) a + S2x3x256x256.size a ≤ S2x3x256x256.size a
  h_S2x3x256x256 : 0 < S2x3x256x256.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x3x258x258.size a ≤ S64x3x258x258.size a
  hwx0_0 : ∀ i : grid0.Coords, EltTy.bits .f32 = 32 ∨ (Rect.block (s := S64x3x258x258) S2x3x258x258.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x9x256x256.size a ≤ S64x9x256x256.size a
  hwx0_1 : ∀ i : grid0.Coords, EltTy.bits .f32 = 32 ∨ (Rect.block (s := S64x9x256x256) S2x9x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x3x256x256.size a ≤ S64x3x256x256.size a
  hwx0_2 : ∀ i : grid0.Coords, EltTy.bits .f32 = 32 ∨ (Rect.block (s := S64x3x256x256) S2x3x256x256.size (cc0_transform_2 i) (hinb0_2 i)).WholeWords (EltTy.packing .f32)

variable [Facts₀]

abbrev win0_0 : Pipeline.Window sig grid0 :=
  Pipeline.Window.ofSpec (Memref.whole main_v0) S2x3x258x258.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x9x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2x3x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x3x256x256 : Shape := ⟨4, ![64, 3, 256, 256]⟩
abbrev S64x9x256x256 : Shape := ⟨4, ![64, 9, 256, 256]⟩
abbrev S_ : Shape := ⟨0, ![]⟩
abbrev S64x256x256 : Shape := ⟨3, ![64, 256, 256]⟩
abbrev S64x1x256x256 : Shape := ⟨4, ![64, 1, 256, 256]⟩
abbrev S64x3x1x256 : Shape := ⟨4, ![64, 3, 1, 256]⟩
abbrev S64x3x257x256 : Shape := ⟨4, ![64, 3, 257, 256]⟩
abbrev S64x3x258x256 : Shape := ⟨4, ![64, 3, 258, 256]⟩
abbrev S64x3x258x1 : Shape := ⟨4, ![64, 3, 258, 1]⟩
abbrev S64x3x258x257 : Shape := ⟨4, ![64, 3, 258, 257]⟩
abbrev S64x3x258x258 : Shape := ⟨4, ![64, 3, 258, 258]⟩

abbrev nBuf : Space → Nat
  | .hbm => 74
  | .vmem => 0
  | .smem => 0
  | _ => 0

abbrev bufTy : (tb : Table) → Fin (tcTables nBuf tb) → BufTy
  | .hbm, ⟨0, _⟩ => ⟨S64x3x256x256, .f32⟩
  | .hbm, ⟨1, _⟩ => ⟨S64x9x256x256, .f32⟩
  | .hbm, ⟨2, _⟩ => ⟨S_, .f32⟩
  | .hbm, ⟨3, _⟩ => ⟨S64x256x256, .f32⟩
  | .hbm, ⟨4, _⟩ => ⟨S64x1x256x256, .f32⟩
  | .hbm, ⟨5, _⟩ => ⟨S_, .f32⟩
  | .hbm, ⟨6, _⟩ => ⟨S64x1x256x256, .f32⟩
  | .hbm, ⟨7, _⟩ => ⟨S64x1x256x256, .f32⟩
  | .hbm, ⟨8, _⟩ => ⟨S64x9x256x256, .f32⟩
  | .hbm, ⟨9, _⟩ => ⟨S64x9x256x256, .f32⟩
  | .hbm, ⟨10, _⟩ => ⟨S_, .i32⟩
  | .hbm, ⟨11, _⟩ => ⟨S64x3x1x256, .f32⟩
  | .hbm, ⟨12, _⟩ => ⟨S64x3x1x256, .f32⟩
  | .hbm, ⟨13, _⟩ => ⟨S64x3x1x256, .f32⟩
  | .hbm, ⟨14, _⟩ => ⟨S64x3x257x256, .f32⟩
  | .hbm, ⟨15, _⟩ => ⟨S64x3x1x256, .f32⟩
  | .hbm, ⟨16, _⟩ => ⟨S64x3x1x256, .f32⟩
  | .hbm, ⟨17, _⟩ => ⟨S64x3x1x256, .f32⟩
  | .hbm, ⟨18, _⟩ => ⟨S64x3x258x256, .f32⟩
  | .hbm, ⟨19, _⟩ => ⟨S64x3x258x1, .f32⟩
  | .hbm, ⟨20, _⟩ => ⟨S64x3x258x1, .f32⟩
  | .hbm, ⟨21, _⟩ => ⟨S64x3x258x1, .f32⟩
  | .hbm, ⟨22, _⟩ => ⟨S64x3x258x257, .f32⟩
  | .hbm, ⟨23, _⟩ => ⟨S64x3x258x1, .f32⟩
  | .hbm, ⟨24, _⟩ => ⟨S64x3x258x1, .f32⟩
  | .hbm, ⟨25, _⟩ => ⟨S64x3x258x1, .f32⟩
  | .hbm, ⟨26, _⟩ => ⟨S64x3x258x258, .f32⟩
  | .hbm, ⟨27, _⟩ => ⟨S_, .f32⟩
  | .hbm, ⟨28, _⟩ => ⟨S64x3x256x256, .f32⟩
  | .hbm, ⟨29, _⟩ => ⟨S64x3x256x256, .f32⟩
  | .hbm, ⟨30, _⟩ => ⟨S64x1x256x256, .f32⟩
  | .hbm, ⟨31, _⟩ => ⟨S64x3x256x256, .f32⟩
  | .hbm, ⟨32, _⟩ => ⟨S64x3x256x256, .f32⟩
  | .hbm, ⟨33, _⟩ => ⟨S64x3x256x256, .f32⟩
  | .hbm, ⟨34, _⟩ => ⟨S64x3x256x256, .f32⟩
  | .hbm, ⟨35, _⟩ => ⟨S64x1x256x256, .f32⟩
  | .hbm, ⟨36, _⟩ => ⟨S64x3x256x256, .f32⟩
  | .hbm, ⟨37, _⟩ => ⟨S64x3x256x256, .f32⟩
  | .hbm, ⟨38, _⟩ => ⟨S64x3x256x256, .f32⟩
  | .hbm, ⟨39, _⟩ => ⟨S64x3x256x256, .f32⟩
  | .hbm, ⟨40, _⟩ => ⟨S64x1x256x256, .f32⟩
  | .hbm, ⟨41, _⟩ => ⟨S64x3x256x256, .f32⟩
  | .hbm, ⟨42, _⟩ => ⟨S64x3x256x256, .f32⟩
  | .hbm, ⟨43, _⟩ => ⟨S64x3x256x256, .f32⟩
  | .hbm, ⟨44, _⟩ => ⟨S64x3x256x256, .f32⟩
  | .hbm, ⟨45, _⟩ => ⟨S64x1x256x256, .f32⟩
  | .hbm, ⟨46, _⟩ => ⟨S64x3x256x256, .f32⟩
  | .hbm, ⟨47, _⟩ => ⟨S64x3x256x256, .f32⟩
  | .hbm, ⟨48, _⟩ => ⟨S64x3x256x256, .f32⟩
  | .hbm, ⟨49, _⟩ => ⟨S64x3x256x256, .f32⟩
  | .hbm, ⟨50, _⟩ => ⟨S64x1x256x256, .f32⟩
  | .hbm, ⟨51, _⟩ => ⟨S64x3x256x256, .f32⟩
  | .hbm, ⟨52, _⟩ => ⟨S64x3x256x256, .f32⟩
  | .hbm, ⟨53, _⟩ => ⟨S64x3x256x256, .f32⟩
  | .hbm, ⟨54, _⟩ => ⟨S64x3x256x256, .f32⟩
  | .hbm, ⟨55, _⟩ => ⟨S64x1x256x256, .f32⟩
  | .hbm, ⟨56, _⟩ => ⟨S64x3x256x256, .f32⟩
  | .hbm, ⟨57, _⟩ => ⟨S64x3x256x256, .f32⟩
  | .hbm, ⟨58, _⟩ => ⟨S64x3x256x256, .f32⟩
  | .hbm, ⟨59, _⟩ => ⟨S64x3x256x256, .f32⟩
  | .hbm, ⟨60, _⟩ => ⟨S64x1x256x256, .f32⟩
  | .hbm, ⟨61, _⟩ => ⟨S64x3x256x256, .f32⟩
  | .hbm, ⟨62, _⟩ => ⟨S64x3x256x256, .f32⟩
  | .hbm, ⟨63, _⟩ => ⟨S64x3x256x256, .f32⟩
  | .hbm, ⟨64, _⟩ => ⟨S64x3x256x256, .f32⟩
  | .hbm, ⟨65, _⟩ => ⟨S64x1x256x256, .f32⟩
  | .hbm, ⟨66, _⟩ => ⟨S64x3x256x256, .f32⟩
  | .hbm, ⟨67, _⟩ => ⟨S64x3x256x256, .f32⟩
  | .hbm, ⟨68, _⟩ => ⟨S64x3x256x256, .f32⟩
  | .hbm, ⟨69, _⟩ => ⟨S64x3x256x256, .f32⟩
  | .hbm, ⟨70, _⟩ => ⟨S64x1x256x256, .f32⟩
  | .hbm, ⟨71, _⟩ => ⟨S64x3x256x256, .f32⟩
  | .hbm, ⟨72, _⟩ => ⟨S64x3x256x256, .f32⟩
  | .hbm, ⟨73, _⟩ => ⟨S64x3x256x256, .f32⟩
  | _, _ => ⟨S64x3x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v6 : Ref sig .tc := ⟨.hbm, 26, rfl⟩
abbrev main_cst_1 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]

class Facts₀ : Prop where
  reducesTo_S64x9x256x256_S64x256x256_d1 : S64x9x256x256.ReducesTo [1] S64x256x256
  h_S_ : 0 < S_.numel
  bcast_S64x256x256_S64x1x256x256_0_2_3 : S64x256x256.BroadcastsInDim S64x1x256x256 (![0, 2, 3] : Fin 3 → Fin S64x1x256x256.rank)
  bcast_S_S64x1x256x256 : S_.BroadcastsInDim S64x1x256x256 (![] : Fin 0 → Fin S64x1x256x256.rank)
  bcast_S64x1x256x256_S64x9x256x256_0_1_2_3 : S64x1x256x256.BroadcastsInDim S64x9x256x256 (![0, 1, 2, 3] : Fin 4 → Fin S64x9x256x256.rank)
  slices_S64x3x256x256_S64x3x1x256_0_0_0_0 : S64x3x256x256.Slices ![0, 0, 0, 0] S64x3x1x256
  slices_S64x3x256x256_S64x3x1x256_0_0_1_0 : S64x3x256x256.Slices ![0, 0, 1, 0] S64x3x1x256
  concatenates_S64x3x1x256_S64x3x256x256_S64x3x257x256_d2 : Shape.Concatenates [S64x3x1x256, S64x3x256x256] S64x3x257x256 2
  slices_S64x3x257x256_S64x3x1x256_0_0_256_0 : S64x3x257x256.Slices ![0, 0, 256, 0] S64x3x1x256
  slices_S64x3x257x256_S64x3x1x256_0_0_255_0 : S64x3x257x256.Slices ![0, 0, 255, 0] S64x3x1x256
  concatenates_S64x3x257x256_S64x3x1x256_S64x3x258x256_d2 : Shape.Concatenates [S64x3x257x256, S64x3x1x256] S64x3x258x256 2
  slices_S64x3x258x256_S64x3x258x1_0_0_0_0 : S64x3x258x256.Slices ![0, 0, 0, 0] S64x3x258x1
  slices_S64x3x258x256_S64x3x258x1_0_0_0_1 : S64x3x258x256.Slices ![0, 0, 0, 1] S64x3x258x1
  concatenates_S64x3x258x1_S64x3x258x256_S64x3x258x257_d3 : Shape.Concatenates [S64x3x258x1, S64x3x258x256] S64x3x258x257 3
  slices_S64x3x258x257_S64x3x258x1_0_0_0_256 : S64x3x258x257.Slices ![0, 0, 0, 256] S64x3x258x1
  slices_S64x3x258x257_S64x3x258x1_0_0_0_255 : S64x3x258x257.Slices ![0, 0, 0, 255] S64x3x258x1
  concatenates_S64x3x258x257_S64x3x258x1_S64x3x258x258_d3 : Shape.Concatenates [S64x3x258x257, S64x3x258x1] S64x3x258x258 3
  bcast_S_S64x3x256x256 : S_.BroadcastsInDim S64x3x256x256 (![] : Fin 0 → Fin S64x3x256x256.rank)
  slices_S64x3x258x258_S64x3x256x256_0_0_0_0 : S64x3x258x258.Slices ![0, 0, 0, 0] S64x3x256x256
  slices_S64x9x256x256_S64x1x256x256_0_0_0_0 : S64x9x256x256.Slices ![0, 0, 0, 0] S64x1x256x256
  bcast_S64x1x256x256_S64x3x256x256_0_1_2_3 : S64x1x256x256.BroadcastsInDim S64x3x256x256 (![0, 1, 2, 3] : Fin 4 → Fin S64x3x256x256.rank)
  slices_S64x3x258x258_S64x3x256x256_0_0_0_1 : S64x3x258x258.Slices ![0, 0, 0, 1] S64x3x256x256
  slices_S64x9x256x256_S64x1x256x256_0_1_0_0 : S64x9x256x256.Slices ![0, 1, 0, 0] S64x1x256x256
  slices_S64x3x258x258_S64x3x256x256_0_0_0_2 : S64x3x258x258.Slices ![0, 0, 0, 2] S64x3x256x256
  slices_S64x9x256x256_S64x1x256x256_0_2_0_0 : S64x9x256x256.Slices ![0, 2, 0, 0] S64x1x256x256
  slices_S64x3x258x258_S64x3x256x256_0_0_1_0 : S64x3x258x258.Slices ![0, 0, 1, 0] S64x3x256x256
  slices_S64x9x256x256_S64x1x256x256_0_3_0_0 : S64x9x256x256.Slices ![0, 3, 0, 0] S64x1x256x256
  slices_S64x3x258x258_S64x3x256x256_0_0_1_1 : S64x3x258x258.Slices ![0, 0, 1, 1] S64x3x256x256
  slices_S64x9x256x256_S64x1x256x256_0_4_0_0 : S64x9x256x256.Slices ![0, 4, 0, 0] S64x1x256x256
  slices_S64x3x258x258_S64x3x256x256_0_0_1_2 : S64x3x258x258.Slices ![0, 0, 1, 2] S64x3x256x256
  slices_S64x9x256x256_S64x1x256x256_0_5_0_0 : S64x9x256x256.Slices ![0, 5, 0, 0] S64x1x256x256
  slices_S64x3x258x258_S64x3x256x256_0_0_2_0 : S64x3x258x258.Slices ![0, 0, 2, 0] S64x3x256x256
  slices_S64x9x256x256_S64x1x256x256_0_6_0_0 : S64x9x256x256.Slices ![0, 6, 0, 0] S64x1x256x256
  slices_S64x3x258x258_S64x3x256x256_0_0_2_1 : S64x3x258x258.Slices ![0, 0, 2, 1] S64x3x256x256
  slices_S64x9x256x256_S64x1x256x256_0_7_0_0 : S64x9x256x256.Slices ![0, 7, 0, 0] S64x1x256x256
  slices_S64x3x258x258_S64x3x256x256_0_0_2_2 : S64x3x258x258.Slices ![0, 0, 2, 2] S64x3x256x256
  slices_S64x9x256x256_S64x1x256x256_0_8_0_0 : S64x9x256x256.Slices ![0, 8, 0, 0] S64x1x256x256

variable [Facts₀]

class Facts : Prop extends Facts₀ where

variable [Facts]
-- ==== Proof.LibChannels.lean ====
/-
  Rank-4 arrays laid out [batch, channel, row, column], read at an index given by its four coordinates.
  • A spatial WINDOW: the unit-stride slice at offsets (0, 0, di, dj) reads the source at (b, c, di + p, dj + q).
  • ONE CHANNEL SPREAD OVER ALL: a unit-channel array [n, 1, h, w] broadcast over C channels reads its one channel
    whatever channel is asked for, in the vector unit's spelling (a vector broadcast) and in the host's (a
    broadcast along all four axes); and channel k of an [n, K, h, w] array cut out and spread that way reads the
    source at (b, k, p, q).
  • The CHANNEL SUM: the sum over axis 1 of an [n, K, h, w] array is, at (b, p, q), the sum over k of the source at
    (b, k, p, q) — the vector unit's additive reduction from a neutral accumulator, and the host's reduction from
    its initial value — and the sum re-laid as a unit-channel array [n, 1, h, w]: a shape cast on the vector unit,
    a broadcast along axes 0, 2, 3 on the host.
  Every extent is a variable; the statements apply to printed operations by unification.
-/
import Idealize.ShloMosaic.Lib.ValueIdx
import Idealize.ShloMosaic.Lib.ValueLayout
import Idealize.ShloMosaic.Lib.IdealHost
import Idealize.ShloMosaic.PureOps.Ideal.Laws

namespace Cert.LibChannels

open Idealize.ShloMosaic Idealize.ShloMosaic.ValueIdx

variable {α : Type}

/-- A coordinate of an axis of extent `n` is `0` when the axis is a unit axis, itself otherwise: the form a
    broadcast's read asks for on every axis. -/
theorem val_eq_ite_unit {n : Nat} (x : Nat) (hx : x < n) : x = if n = 1 then 0 else x := by
  by_cases h : n = 1
  · rw [if_pos h]; omega
  · rw [if_neg h]

/-! ## A spatial window -/

/-- The window at offsets `(di, dj)` of the last two axes reads, at `(b, c, p, q)`, the source at
    `(b, c, p', q')` with `p' = di + p` and `q' = dj + q`. -/
theorem window_apply {n C H W h w : Nat} (di dj : Nat) (X : (⟨4, ![n, C, H, W]⟩ : Shape).Idx → α)
    (hs : (⟨4, ![n, C, H, W]⟩ : Shape).Slices ![0, 0, di, dj] ⟨4, ![n, C, h, w]⟩)
    (b : Fin n) (c : Fin C) (p : Fin h) (q : Fin w) (p' : Fin H) (q' : Fin W)
    (hp : p'.val = di + p.val) (hq : q'.val = dj + q.val) :
    extractStridedSlice ⟨4, ![n, C, h, w]⟩ ![0, 0, di, dj] X hs (ix4 b c p q) = X (ix4 b c p' q') :=
  extractStridedSlice_apply _ _ _ _ _ (fun ax => by
    match ax with
    | ⟨0, _⟩ => exact (Nat.zero_add _).symm
    | ⟨1, _⟩ => exact (Nat.zero_add _).symm
    | ⟨2, _⟩ => exact hp
    | ⟨3, _⟩ => exact hq)

/-- The same with the two shifted coordinates written out, their bounds the slice's own side condition: the form
    a rewrite can use. -/
theorem window_eq {n C H W h w : Nat} (di dj : Nat) (X : (⟨4, ![n, C, H, W]⟩ : Shape).Idx → α)
    (hs : (⟨4, ![n, C, H, W]⟩ : Shape).Slices ![0, 0, di, dj] ⟨4, ![n, C, h, w]⟩)
    (b : Fin n) (c : Fin C) (p : Fin h) (q : Fin w) :
    extractStridedSlice ⟨4, ![n, C, h, w]⟩ ![0, 0, di, dj] X hs (ix4 b c p q)
      = X (ix4 b c ⟨di + p.val, by have e : di + h ≤ H := hs.2 2; have := p.isLt; omega⟩
            ⟨dj + q.val, by have e : dj + w ≤ W := hs.2 3; have := q.isLt; omega⟩) :=
  window_apply di dj X hs b c p q _ _ rfl rfl

/-! ## One channel spread over all -/

/-- A unit-channel array broadcast over `C` channels (the vector unit's broadcast) reads its one channel. -/
theorem broadcastTo_channels_apply {n C h w : Nat} (Z : (⟨4, ![n, 1, h, w]⟩ : Shape).Idx → α)
    (hb : (⟨4, ![n, 1, h, w]⟩ : Shape).Broadcasts ⟨4, ![n, C, h, w]⟩) (b : Fin n) (c : Fin C) (p : Fin h) (q : Fin w) :
    broadcastTo ⟨4, ![n, C, h, w]⟩ Z hb (ix4 b c p q) = Z (ix4 b 0 p q) :=
  broadcastTo_apply _ _ _ _ (fun a => by
    match a with
    | ⟨0, _⟩ => exact val_eq_ite_unit b.val b.isLt
    | ⟨1, _⟩ => exact (if_pos rfl).symm
    | ⟨2, _⟩ => exact val_eq_ite_unit p.val p.isLt
    | ⟨3, _⟩ => exact val_eq_ite_unit q.val q.isLt)

/-- The same in the host's spelling: a broadcast along all four axes. -/
theorem broadcastInDim_channels_apply {n C h w : Nat} (Z : (⟨4, ![n, 1, h, w]⟩ : Shape).Idx → α)
    (hb : (⟨4, ![n, 1, h, w]⟩ : Shape).BroadcastsInDim ⟨4, ![n, C, h, w]⟩ ![0, 1, 2, 3])
    (b : Fin n) (c : Fin C) (p : Fin h) (q : Fin w) :
    broadcastInDim ⟨4, ![n, C, h, w]⟩ ![0, 1, 2, 3] hb Z (ix4 b c p q) = Z (ix4 b 0 p q) :=
  broadcastInDim_apply _ _ _ _ _ (fun a => by
    match a with
    | ⟨0, _⟩ => exact val_eq_ite_unit b.val b.isLt
    | ⟨1, _⟩ => exact (if_pos rfl).symm
    | ⟨2, _⟩ => exact val_eq_ite_unit p.val p.isLt
    | ⟨3, _⟩ => exact val_eq_ite_unit q.val q.isLt)

/-- Channel `k` cut out of an `[n, K, h, w]` array reads, at `(b, 0, p, q)`, the source at `(b, k, p, q)`. -/
theorem channel_eq {n K h w : Nat} (k : Nat) (Y : (⟨4, ![n, K, h, w]⟩ : Shape).Idx → α)
    (hs : (⟨4, ![n, K, h, w]⟩ : Shape).Slices ![0, k, 0, 0] ⟨4, ![n, 1, h, w]⟩)
    (b : Fin n) (p : Fin h) (q : Fin w) :
    extractStridedSlice ⟨4, ![n, 1, h, w]⟩ ![0, k, 0, 0] Y hs (ix4 b 0 p q)
      = Y (ix4 b ⟨k, by have e : k + 1 ≤ K := hs.2 1; omega⟩ p q) :=
  slice4_axis1_apply k Y hs b 0 p q _ rfl

/-- Channel `k` spread over `C` channels on the vector unit reads the source at `(b, k, p, q)`. -/
theorem channel_broadcastTo_eq {n K C h w : Nat} (k : Nat) (Y : (⟨4, ![n, K, h, w]⟩ : Shape).Idx → α)
    (hs : (⟨4, ![n, K, h, w]⟩ : Shape).Slices ![0, k, 0, 0] ⟨4, ![n, 1, h, w]⟩)
    (hb : (⟨4, ![n, 1, h, w]⟩ : Shape).Broadcasts ⟨4, ![n, C, h, w]⟩) (b : Fin n) (c : Fin C) (p : Fin h) (q : Fin w) :
    broadcastTo ⟨4, ![n, C, h, w]⟩ (extractStridedSlice ⟨4, ![n, 1, h, w]⟩ ![0, k, 0, 0] Y hs) hb (ix4 b c p q)
      = Y (ix4 b ⟨k, by have e : k + 1 ≤ K := hs.2 1; omega⟩ p q) :=
  (broadcastTo_channels_apply _ hb b c p q).trans (channel_eq k Y hs b p q)

/-- Channel `k` spread over `C` channels on the host reads the source at `(b, k, p, q)`. -/
theorem channel_broadcastInDim_eq {n K C h w : Nat} (k : Nat) (Y : (⟨4, ![n, K, h, w]⟩ : Shape).Idx → α)
    (hs : (⟨4, ![n, K, h, w]⟩ : Shape).Slices ![0, k, 0, 0] ⟨4, ![n, 1, h, w]⟩)
    (hb : (⟨4, ![n, 1, h, w]⟩ : Shape).BroadcastsInDim ⟨4, ![n, C, h, w]⟩ ![0, 1, 2, 3])
    (b : Fin n) (c : Fin C) (p : Fin h) (q : Fin w) :
    broadcastInDim ⟨4, ![n, C, h, w]⟩ ![0, 1, 2, 3] hb (extractStridedSlice ⟨4, ![n, 1, h, w]⟩ ![0, k, 0, 0] Y hs) (ix4 b c p q)
      = Y (ix4 b ⟨k, by have e : k + 1 ≤ K := hs.2 1; omega⟩ p q) :=
  (broadcastInDim_channels_apply _ hb b c p q).trans (channel_eq k Y hs b p q)

/-! ## The channel sum -/

/-- An `[n, h, w]` array re-laid with a unit channel axis (a shape cast) reads, at `(b, 0, p, q)`, the source at
    `(b, p, q)`. -/
theorem shapeCast_unitChannel_apply {n h w : Nat} (v : (⟨3, ![n, h, w]⟩ : Shape).Idx → α)
    (hc : (⟨3, ![n, h, w]⟩ : Shape).ShapeCasts ⟨4, ![n, 1, h, w]⟩) (b : Fin n) (p : Fin h) (q : Fin w) :
    shapeCast ⟨4, ![n, 1, h, w]⟩ v hc (ix4 b 0 p q) = v (ix3 b p q) :=
  shapeCast_apply _ _ _ _ (by
    rw [Shape.rowMajor_val_three, Shape.rowMajor_val_four]
    show (b.val * h + p.val) * w + q.val = ((b.val * 1 + 0) * h + p.val) * w + q.val
    rw [Nat.mul_one, Nat.add_zero])

/-- The same on the host: a broadcast along axes 0, 2, 3 into the unit-channel shape. -/
theorem broadcastInDim_unitChannel_apply {n h w : Nat} (v : (⟨3, ![n, h, w]⟩ : Shape).Idx → α)
    (hb : (⟨3, ![n, h, w]⟩ : Shape).BroadcastsInDim ⟨4, ![n, 1, h, w]⟩ ![0, 2, 3]) (b : Fin n) (p : Fin h) (q : Fin w) :
    broadcastInDim ⟨4, ![n, 1, h, w]⟩ ![0, 2, 3] hb v (ix4 b 0 p q) = v (ix3 b p q) :=
  broadcastInDim_apply _ _ _ _ _ (fun a => by
    match a with
    | ⟨0, _⟩ => exact val_eq_ite_unit b.val b.isLt
    | ⟨1, _⟩ => exact val_eq_ite_unit p.val p.isLt
    | ⟨2, _⟩ => exact val_eq_ite_unit q.val q.isLt)

/-- The vector unit's additive reduction over the channel axis, from a neutral accumulator, is the sum over the
    channels. -/
theorem multiReduction_channels_apply {n K h w : Nat} {φ : FTy} (src : FVec Ideal ⟨4, ![n, K, h, w]⟩ φ) (acc : BitVec φ.bits)
    (hr : (⟨4, ![n, K, h, w]⟩ : Shape).Reduces [1] ⟨3, ![n, h, w]⟩) (hφ : FKind.Formats φ)
    (hacc : acc = FKind.add.neutral φ hφ) (b : Fin n) (p : Fin h) (q : Fin w) :
    multiReduction .add [1] ⟨3, ![n, h, w]⟩ src acc hr hφ hacc (ix3 b p q) = ∑ k : Fin K, src (ix4 b k p q) :=
  (Ideal.multiReduction_add_single src acc hr hφ hacc (ix3 b p q)).trans
    (Finset.sum_congr rfl fun k _ => congrArg src (funext fun a => Fin.ext (by
      match a with
      | ⟨0, _⟩ => rfl
      | ⟨1, _⟩ => rfl
      | ⟨2, _⟩ => rfl
      | ⟨3, _⟩ => rfl)))

/-- The host's additive reduction over the channel axis is its initial value plus the sum over the channels. -/
theorem hostReduceAdd_channels_apply {n K h w : Nat} {u : Shape} {φ : FTy} (x : FVec Ideal ⟨4, ![n, K, h, w]⟩ φ)
    (init : u.Idx → Ideal φ) (hr' : (⟨4, ![n, K, h, w]⟩ : Shape).ReducesTo [1] ⟨3, ![n, h, w]⟩) (hu : 0 < u.numel)
    (hr : (⟨4, ![n, K, h, w]⟩ : Shape).Reduces [1] ⟨3, ![n, h, w]⟩) (b : Fin n) (p : Fin h) (q : Fin w) :
    Host.reduceAdd x init hr' hu (ix3 b p q) = init (Shape.Idx.first hu) + ∑ k : Fin K, x (ix4 b k p q) :=
  (hostReduceAdd_apply x init hr' hu (ix3 b p q)).trans
    ((Ideal.hostReduceAdd_single hr' hr x _ (ix3 b p q)).trans
      (congrArg (init (Shape.Idx.first hu) + ·) (Finset.sum_congr rfl fun k _ => congrArg x (funext fun a => Fin.ext (by
        match a with
        | ⟨0, _⟩ => rfl
        | ⟨1, _⟩ => rfl
        | ⟨2, _⟩ => rfl
        | ⟨3, _⟩ => rfl)))))

end Cert.LibChannels
-- ==== Proof.FilterSpec.lean ====
/-
  The per-pixel 3×3 filter both programs compute, as one function of a padded image and a stack of nine weight
  maps, index by index on the extended reals.
  At pixel (p, q) of image b the nine weights are the nine channels of `sg` there, each divided by their sum plus a
  small constant; channel c of the result is the sum, over the nine offsets (di, dj) of the window in row-major order,
  of the padded image at (b, c, di + p, dj + q) times weight 3·di + dj, accumulated from zero in that order. The result
  at batch index b reads the two arrays at batch index b only, so a block of consecutive images of the whole arrays
  gives the same block of the result (`filt_of_block`).
-/
import proofs.«118978_j32779190403118_1_alg».proof.Proof.LibChannels

noncomputable section

namespace Cert.Filter

open Idealize.ShloMosaic Idealize.ShloMosaic.ValueIdx

/-- The nine normalised weights at pixel `(p, q)` of image `b`: channel `k` of `sg` over the channels' sum plus the
    constant. -/
def wgt {n : Nat} (sg : FVec Ideal ⟨4, ![n, 9, 256, 256]⟩ .f32) (b : Fin n) (p q : Fin 256) (k : Fin 9) : Ideal .f32 :=
  Ideal.div (sg (ix4 b k p q)) ((∑ k' : Fin 9, sg (ix4 b k' p q)) + Ideal.ofBits .f32 0x3089705F#32)

/-- The weighted sum of the 3×3 window of the padded image `xp` whose corner is `(p, q)`, with weights `w`, from
    zero, the offsets in row-major order. -/
def taps {n : Nat} (xp : FVec Ideal ⟨4, ![n, 3, 258, 258]⟩ .f32) (w : Fin 9 → Ideal .f32) (b : Fin n) (c : Fin 3)
    (p q : Fin 256) : Ideal .f32 :=
  Ideal.ofBits .f32 0x00000000#32
    + xp (ix4 b c ⟨0 + p.val, by have := p.isLt; omega⟩ ⟨0 + q.val, by have := q.isLt; omega⟩) * w ⟨0, by omega⟩
    + xp (ix4 b c ⟨0 + p.val, by have := p.isLt; omega⟩ ⟨1 + q.val, by have := q.isLt; omega⟩) * w ⟨1, by omega⟩
    + xp (ix4 b c ⟨0 + p.val, by have := p.isLt; omega⟩ ⟨2 + q.val, by have := q.isLt; omega⟩) * w ⟨2, by omega⟩
    + xp (ix4 b c ⟨1 + p.val, by have := p.isLt; omega⟩ ⟨0 + q.val, by have := q.isLt; omega⟩) * w ⟨3, by omega⟩
    + xp (ix4 b c ⟨1 + p.val, by have := p.isLt; omega⟩ ⟨1 + q.val, by have := q.isLt; omega⟩) * w ⟨4, by omega⟩
    + xp (ix4 b c ⟨1 + p.val, by have := p.isLt; omega⟩ ⟨2 + q.val, by have := q.isLt; omega⟩) * w ⟨5, by omega⟩
    + xp (ix4 b c ⟨2 + p.val, by have := p.isLt; omega⟩ ⟨0 + q.val, by have := q.isLt; omega⟩) * w ⟨6, by omega⟩
    + xp (ix4 b c ⟨2 + p.val, by have := p.isLt; omega⟩ ⟨1 + q.val, by have := q.isLt; omega⟩) * w ⟨7, by omega⟩
    + xp (ix4 b c ⟨2 + p.val, by have := p.isLt; omega⟩ ⟨2 + q.val, by have := q.isLt; omega⟩) * w ⟨8, by omega⟩

/-- The filtered image at an index. -/
def filt {n : Nat} (xp : FVec Ideal ⟨4, ![n, 3, 258, 258]⟩ .f32) (sg : FVec Ideal ⟨4, ![n, 9, 256, 256]⟩ .f32)
    (i : (⟨4, ![n, 3, 256, 256]⟩ : Shape).Idx) : Ideal .f32 :=
  taps xp (wgt sg (i 0) (i 2) (i 3)) (i 0) (i 1) (i 2) (i 3)

theorem filt_ix4 {n : Nat} (xp : FVec Ideal ⟨4, ![n, 3, 258, 258]⟩ .f32) (sg : FVec Ideal ⟨4, ![n, 9, 256, 256]⟩ .f32)
    (b : Fin n) (c : Fin 3) (p q : Fin 256) : filt xp sg (ix4 b c p q) = taps xp (wgt sg b p q) b c p q := rfl

/-- The weights at image `b` of one stack are those at image `b'` of another that agrees with it there. -/
theorem wgt_congr {n n' : Nat} (sg : FVec Ideal ⟨4, ![n, 9, 256, 256]⟩ .f32) (sg' : FVec Ideal ⟨4, ![n', 9, 256, 256]⟩ .f32)
    (b : Fin n) (b' : Fin n') (p q : Fin 256) (hs : ∀ k : Fin 9, sg (ix4 b k p q) = sg' (ix4 b' k p q)) :
    wgt sg b p q = wgt sg' b' p q := by
  funext k
  unfold wgt
  simp only [hs]

/-- The window sum at image `b` of one padded stack is that at image `b'` of another that agrees with it there. -/
theorem taps_congr {n n' : Nat} (xp : FVec Ideal ⟨4, ![n, 3, 258, 258]⟩ .f32) (xp' : FVec Ideal ⟨4, ![n', 3, 258, 258]⟩ .f32)
    (w : Fin 9 → Ideal .f32) (b : Fin n) (b' : Fin n') (c : Fin 3) (p q : Fin 256)
    (hx : ∀ r s : Fin 258, xp (ix4 b c r s) = xp' (ix4 b' c r s)) : taps xp w b c p q = taps xp' w b' c p q := by
  unfold taps
  simp only [hx]

/-- A block of images: if index `j` of a block and index `i` of the whole arrays have the same channel, row and
    column, and the block's image `j 0` is the whole arrays' image `i 0` (in both arrays), the filter of the
    block at `j` is the filter of the whole arrays at `i`. -/
theorem filt_of_block {n n' : Nat} (P0 : FVec Ideal ⟨4, ![n, 3, 258, 258]⟩ .f32) (P1 : FVec Ideal ⟨4, ![n, 9, 256, 256]⟩ .f32)
    (XP : FVec Ideal ⟨4, ![n', 3, 258, 258]⟩ .f32) (SG : FVec Ideal ⟨4, ![n', 9, 256, 256]⟩ .f32)
    (j : (⟨4, ![n, 3, 256, 256]⟩ : Shape).Idx) (i : (⟨4, ![n', 3, 256, 256]⟩ : Shape).Idx)
    (h1 : (i 1).val = (j 1).val) (h2 : (i 2).val = (j 2).val) (h3 : (i 3).val = (j 3).val)
    (hx : ∀ (c : Fin 3) (r s : Fin 258), P0 (ix4 (j 0) c r s) = XP (ix4 (i 0) c r s))
    (hs : ∀ (k : Fin 9) (p q : Fin 256), P1 (ix4 (j 0) k p q) = SG (ix4 (i 0) k p q)) :
    filt P0 P1 j = filt XP SG i := by
  have e1 : i 1 = j 1 := Fin.ext h1
  have e2 : i 2 = j 2 := Fin.ext h2
  have e3 : i 3 = j 3 := Fin.ext h3
  unfold filt
  rw [e1, e2, e3, wgt_congr P1 SG (j 0) (i 0) (j 2) (j 3) fun k => hs k (j 2) (j 3)]
  exact taps_congr P0 XP _ (j 0) (i 0) (j 1) (j 2) (j 3) fun r s => hx (j 1) r s

end Cert.Filter

end
-- ==== Proof.KernelPayload.lean ====
/-
  The kernel body's stored value at an index of its block is the 3×3 filter of the two loaded blocks.
  The body normalises the nine weight maps of its two images (the channels' sum by an additive reduction from a
  neutral accumulator, re-laid with a unit channel axis, the constant added, spread back over the channels, the
  quotient), and accumulates from zero the nine products of a window of the padded block with one normalised
  channel spread over the three image channels — the filter's sum term by term, in the same order.
-/
import proofs.«118978_j32779190403118_1_alg».proof.Proof.Gen.KernelIdeal.Skeleton
import proofs.«118978_j32779190403118_1_alg».proof.Proof.FilterSpec

noncomputable section

namespace Cert.KernelIdeal.Payload

open Cert.KernelIdeal Cert.KernelIdeal.Gen Cert.LibChannels Cert.Filter
open Idealize.ShloMosaic Idealize.ShloMosaic.ValueIdx

/-- The padded block passes through a shape cast to its own shape. -/
theorem pay3_eq (P0 : Vec Ideal S2x3x258x258 .f32) : k0_pay3 (F := Ideal) P0 = P0 := by
  unfold k0_pay3
  exact shapeCast_self _ _

/-- The body's normalised weights at an index. -/
theorem pay2_apply (P1 : Vec Ideal S2x9x256x256 .f32) (b : Fin 2) (k : Fin 9) (p q : Fin 256) :
    k0_pay2 (F := Ideal) P1 (ix4 b k p q) = wgt P1 b p q k := by
  unfold k0_pay2 wgt
  dsimp only
  refine congrArg (Ideal.div (P1 (ix4 b k p q))) ?_
  refine (broadcastTo_channels_apply _ _ b k p q).trans ?_
  refine congrArg (· + Ideal.ofBits .f32 0x3089705F#32) ?_
  refine (shapeCast_unitChannel_apply _ _ b p q).trans ?_
  exact multiReduction_channels_apply P1 _ _ _ _ b p q

/-- The stored value at an index: the window sum of the padded block with the body's normalised weights. -/
theorem payload_ix4 (P0 : Vec Ideal S2x3x258x258 .f32) (P1 : Vec Ideal S2x9x256x256 .f32) (b : Fin 2) (c : Fin 3) (p q : Fin 256) :
    k0_pay1 (F := Ideal) (k0_pay2 P1) (k0_pay3 P0) (k0_pay4 P1 P0) (k0_pay5 P0) (k0_pay6 P1) (ix4 b c p q)
      = taps P0 (fun k => k0_pay2 (F := Ideal) P1 (ix4 b k p q)) b c p q := by
  unfold k0_pay1 k0_pay4 k0_pay5 k0_pay6 taps
  simp only [pay3_eq, addf_apply, mulf_apply, broadcast_apply, window_eq, channel_broadcastTo_eq]
  rfl

/-- The stored value is the filter of the two loaded blocks. -/
theorem payload_apply (P0 : Vec Ideal S2x3x258x258 .f32) (P1 : Vec Ideal S2x9x256x256 .f32) (y : S2x3x256x256.Idx) :
    k0_pay1 (F := Ideal) (k0_pay2 P1) (k0_pay3 P0) (k0_pay4 P1 P0) (k0_pay5 P0) (k0_pay6 P1) y = filt P0 P1 y := by
  obtain ⟨b, c, p, q, rfl⟩ : ∃ (b : Fin 2) (c : Fin 3) (p q : Fin 256), y = ix4 b c p q := ⟨y 0, y 1, y 2, y 3, eq_ix4 y⟩
  rw [payload_ix4, filt_ix4]
  exact congrArg (fun w => taps P0 w b c p q) (funext fun k => pay2_apply P1 b k p q)

end Cert.KernelIdeal.Payload

end
-- ==== Proof.KernelValue.lean ====
/-
  The kernel's run, read: its result array ends at the 3×3 filter of the padded image and the weight maps.
  Grid point t works on images 2t and 2t + 1: its two input blocks are those images of the padded image (which the
  host operations before the region wrote) and of the weight maps, and it writes back those images of the result.
  The body's stored value is the filter of its two blocks, and the filter at an image reads that image only, so
  what point t writes back is block t of the filter of the whole arrays; the 32 blocks cover the result array.
-/
import proofs.«118978_j32779190403118_1_alg».proof.Proof.Gen.KernelIdeal.Frame
import proofs.«118978_j32779190403118_1_alg».proof.Proof.KernelPayload
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.Payload Cert.Filter Idealize.ShloMosaic.ValueIdx

/-- Row 1 of the image flipped onto its top: one new row above the 256. -/
def padTop {F : FTy → Type} [FloatOps F] (x : FVec F S64x3x256x256 .f32) : FVec F S64x3x257x256 .f32 :=
  concatenate S64x3x257x256 2 [⟨S64x3x1x256, Host.reverse [2] (extractStridedSlice S64x3x1x256 ![0, 0, 1, 0] x slices_S64x3x256x256_S64x3x1x256_0_0_1_0)⟩, ⟨S64x3x256x256, x⟩] concatenates_S64x3x1x256_S64x3x256x256_S64x3x257x256_d2

/-- Row 255 of that array (row 254 of the image) flipped onto its bottom. -/
def padBottom {F : FTy → Type} [FloatOps F] (v : FVec F S64x3x257x256 .f32) : FVec F S64x3x258x256 .f32 :=
  concatenate S64x3x258x256 2 [⟨S64x3x257x256, v⟩, ⟨S64x3x1x256, Host.reverse [2] (extractStridedSlice S64x3x1x256 ![0, 0, 255, 0] v slices_S64x3x257x256_S64x3x1x256_0_0_255_0)⟩] concatenates_S64x3x257x256_S64x3x1x256_S64x3x258x256_d2

/-- Column 1 flipped onto the left. -/
def padLeft {F : FTy → Type} [FloatOps F] (v : FVec F S64x3x258x256 .f32) : FVec F S64x3x258x257 .f32 :=
  concatenate S64x3x258x257 3 [⟨S64x3x258x1, Host.reverse [3] (extractStridedSlice S64x3x258x1 ![0, 0, 0, 1] v slices_S64x3x258x256_S64x3x258x1_0_0_0_1)⟩, ⟨S64x3x258x256, v⟩] concatenates_S64x3x258x1_S64x3x258x256_S64x3x258x257_d3

/-- Column 255 of that array (column 254 of the image) flipped onto the right. -/
def padRight {F : FTy → Type} [FloatOps F] (v : FVec F S64x3x258x257 .f32) : FVec F S64x3x258x258 .f32 :=
  concatenate S64x3x258x258 3 [⟨S64x3x258x257, v⟩, ⟨S64x3x258x1, Host.reverse [3] (extractStridedSlice S64x3x258x1 ![0, 0, 0, 255] v slices_S64x3x258x257_S64x3x258x1_0_0_0_255)⟩] concatenates_S64x3x258x257_S64x3x258x1_S64x3x258x258_d3

/-- The image reflect-padded by one pixel on each side of its last two axes, as the padding function computes it:
    top, bottom, left, right. -/
def padT {F : FTy → Type} [FloatOps F] (x : FVec F S64x3x256x256 .f32) : FVec F S64x3x258x258 .f32 :=
  padRight (padLeft (padBottom (padTop x)))

/-- The padding function's sixteen operations (the generated launch module lists them over the call's buffers) are
    four groups of four: the top row, the bottom row, the left column, the right column. -/
theorem hostOps0_1_split {F : FTy → Type} [FloatOps F] :
    (hostOps0_1 : List (HloOp τ sig (Elt F)))
      = hostOps0_1.take 4 ++ ((hostOps0_1.drop 4).take 4 ++ ((hostOps0_1.drop 8).take 4 ++ hostOps0_1.drop 12)) := rfl

section Stages
open Idealize.ShloMosaic.StableHlo
variable {F : FTy → Type} [FloatOps F]

/-- The four groups one by one: each reads the previous group's result and leaves its own. -/
theorem padTop_eq (W : Valuation τ sig (Elt F)) :
    after (hostOps0_1.take 4) W (main_call0_v3 : DevRef τ sig) = padTop (W (main_arg0 : DevRef τ sig)) := by
  simp only [hostOps0_1, List.take, List.drop]
  after_results_simp
  rfl

theorem padBottom_eq (W : Valuation τ sig (Elt F)) :
    after ((hostOps0_1.drop 4).take 4) W (main_call0_v7 : DevRef τ sig) = padBottom (W (main_call0_v3 : DevRef τ sig)) := by
  simp only [hostOps0_1, List.take, List.drop]
  after_results_simp
  rfl

theorem padLeft_eq (W : Valuation τ sig (Elt F)) :
    after ((hostOps0_1.drop 8).take 4) W (main_call0_v11 : DevRef τ sig) = padLeft (W (main_call0_v7 : DevRef τ sig)) := by
  simp only [hostOps0_1, List.take, List.drop]
  after_results_simp
  rfl

theorem padRight_eq (W : Valuation τ sig (Elt F)) :
    after (hostOps0_1.drop 12) W (main_v0 : DevRef τ sig) = padRight (W (main_call0_v11 : DevRef τ sig)) := by
  simp only [hostOps0_1, List.take, List.drop]
  after_results_simp
  rfl

/-- The padding function's sixteen operations leave its result at the padded image. -/
theorem pad_after (W : Valuation τ sig (Elt F)) :
    after hostOps0_1 W (main_v0 : DevRef τ sig) = padT (W (main_arg0 : DevRef τ sig)) := by
  rw [hostOps0_1_split, StableHlo.after_append, StableHlo.after_append, StableHlo.after_append, padRight_eq, padLeft_eq,
    padBottom_eq, padTop_eq]
  rfl

/-- The call's constant operand is written beside the image, which stays as it was. -/
theorem const_arg0 (W : Valuation τ sig (Elt F)) :
    after hostOps0 W (main_arg0 : DevRef τ sig) = W (main_arg0 : DevRef τ sig) := by
  after_results_simp

end Stages

variable (m : (ℓ : Loc nD τ sig) → Buf (Elt Ideal) ℓ) (ρ : Dev nD → PrngReg)

/-- The first window's array, as the region finds it, is the padded image: the host operations before the region
    are the padding function's. -/
theorem V_main_v0 (c : Dev nD) :
    (V m c main_v0 : S64x3x258x258.Idx → Ideal .f32) = padT (F := Ideal) (m ((c : Thread nD τ).loc main_arg0)) := by
  dsimp only [V]
  simp only [List.flatten_cons, List.flatten_nil, List.append_nil]
  rw [StableHlo.after_append, pad_after, const_arg0]

theorem hz : (![0, 0, 0, 0] : Fin 4 → Nat) = fun _ => 0 := funext fun a => by fin_cases a <;> rfl

/-- The printed index maps, decided over the grid: every window's block index is the grid point on the batch axis
    and zero on the other three. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 4) = t.val ∧ win0_2.index t (1 : Fin 4) = 0 ∧ win0_2.index t (2 : Fin 4) = 0 ∧ win0_2.index t (3 : Fin 4) = 0 :=
  (by decide +kernel : ∀ t : Fin grid0.N, _)

/-- The result array the run ends with: the filter of the padded image and the weight maps as the region finds them. -/
abbrev G (c : Dev nD) : S64x3x256x256.Idx → Ideal .f32 := fun i => filt (V m c main_v0) (V m c main_arg1) i

/-- What point `t` writes back is block `t` of the filter of the whole arrays. -/
theorem flushed_eq (c : Dev nD) (t : Fin cfg0.N) :
    (dats m 0 c).flushed 2 t = ((cfg0.win 2).blk t).view.read (Elt Ideal) (G m c) := by
  show (cfg0.win 2).cut (grid0.coords t) ((dats m 0 c).after 2 t) = _
  rw [after0_2]
  unfold out0_2
  rw [View.canon_unit_zero hz]
  simp only [View.ld_unit_zero (S := S2x3x258x258) hz, View.ld_unit_zero (S := S2x9x256x256) hz]
  obtain ⟨a00, a01, a02, a03, a10, a11, a12, a13, a20, a21, a22, a23⟩ := idx_facts t
  funext j
  have hj0 : (j 0).val < 2 := (j 0).isLt
  have hj1 : (j 1).val < 3 := (j 1).isLt
  have hj2 : (j 2).val < 256 := (j 2).isLt
  have hj3 : (j 3).val < 256 := (j 3).isLt
  refine (payload_apply (iblk m c 0 t) (iblk m c 1 t) j).trans ?_
  show filt (iblk m c 0 t) (iblk m c 1 t) j = filt (V m c main_v0) (V m c main_arg1) (((cfg0.win 2).blk t).view.emb j)
  refine filt_of_block _ _ _ _ j _ ?_ ?_ ?_ ?_ ?_
  · show win0_2.index t (1 : Fin 4) * 3 + 1 * (j 1).val = (j 1).val; omega
  · show win0_2.index t (2 : Fin 4) * 256 + 1 * (j 2).val = (j 2).val; omega
  · show win0_2.index t (3 : Fin 4) * 256 + 1 * (j 3).val = (j 3).val; omega
  · intro ch r s
    show V m c main_v0 (((cfg0.win 0).blk t).view.emb (ix4 (j 0) ch r s)) = V m c main_v0 (ix4 ((((cfg0.win 2).blk t).view.emb j) 0) ch r s)
    refine congrArg (V m c main_v0) (funext fun a => Fin.ext ?_)
    match a with
    | ⟨0, _⟩ => show win0_0.index t (0 : Fin 4) * 2 + 1 * (j 0).val = win0_2.index t (0 : Fin 4) * 2 + 1 * (j 0).val; omega
    | ⟨1, _⟩ => show win0_0.index t (1 : Fin 4) * 3 + 1 * ch.val = ch.val; omega
    | ⟨2, _⟩ => show win0_0.index t (2 : Fin 4) * 258 + 1 * r.val = r.val; omega
    | ⟨3, _⟩ => show win0_0.index t (3 : Fin 4) * 258 + 1 * s.val = s.val; omega
  · intro k p q
    show V m c main_arg1 (((cfg0.win 1).blk t).view.emb (ix4 (j 0) k p q)) = V m c main_arg1 (ix4 ((((cfg0.win 2).blk t).view.emb j) 0) k p q)
    refine congrArg (V m c main_arg1) (funext fun a => Fin.ext ?_)
    match a with
    | ⟨0, _⟩ => show win0_1.index t (0 : Fin 4) * 2 + 1 * (j 0).val = win0_2.index t (0 : Fin 4) * 2 + 1 * (j 0).val; omega
    | ⟨1, _⟩ => show win0_1.index t (1 : Fin 4) * 9 + 1 * k.val = k.val; omega
    | ⟨2, _⟩ => show win0_1.index t (2 : Fin 4) * 256 + 1 * p.val = p.val; omega
    | ⟨3, _⟩ => show win0_1.index t (3 : Fin 4) * 256 + 1 * q.val = q.val; omega

/-- An index of the result array is in point `t`'s block iff each coordinate is in the block's range on its axis. -/
theorem mem_blk (t : Fin cfg0.N) (i : S64x3x256x256.Idx) :
    i ∈ ((cfg0.win 2).blk t).view.set ↔ ∀ a : Fin 4, win0_2.index t a * S2x3x256x256.size a ≤ (i a).val ∧ (i a).val < win0_2.index t a * S2x3x256x256.size a + S2x3x256x256.size a := by
  show i ∈ ((View.whole main_v1).slice (win0_2.rect t)).set ↔ _
  rw [View.set_slice_whole, Rect.mem_set_unit]
  exact Iff.rfl

/-- Image `b` of the result array lies in the block of point `b / 2`: the blocks cover the array. -/
theorem cover (i : S64x3x256x256.Idx) : ∃ t : Fin cfg0.N, (cfg0.win 2).flush t = true ∧ i ∈ ((cfg0.win 2).blk t).view.set := by
  have hN : cfg0.N = 32 := N_0
  have hi0 : (i 0).val < 64 := (i 0).isLt
  have hi1 : (i 1).val < 3 := (i 1).isLt
  have hi2 : (i 2).val < 256 := (i 2).isLt
  have hi3 : (i 3).val < 256 := (i 3).isLt
  have ht : (i 0).val / 2 < cfg0.N := by rw [hN]; omega
  refine ⟨⟨(i 0).val / 2, ht⟩, flush0_2 _, ?_⟩
  rw [mem_blk]
  obtain ⟨a00, a01, a02, a03, a10, a11, a12, a13, a20, a21, a22, a23⟩ := idx_facts ⟨(i 0).val / 2, ht⟩
  intro a
  match a with
  | ⟨0, _⟩ =>
    show win0_2.index ⟨(i 0).val / 2, ht⟩ (0 : Fin 4) * 2 ≤ (i 0).val ∧ (i 0).val < win0_2.index ⟨(i 0).val / 2, ht⟩ (0 : Fin 4) * 2 + 2
    rw [a20]; show (i 0).val / 2 * 2 ≤ (i 0).val ∧ (i 0).val < (i 0).val / 2 * 2 + 2; omega
  | ⟨1, _⟩ =>
    show win0_2.index ⟨(i 0).val / 2, ht⟩ (1 : Fin 4) * 3 ≤ (i 1).val ∧ (i 1).val < win0_2.index ⟨(i 0).val / 2, ht⟩ (1 : Fin 4) * 3 + 3
    rw [a21]; omega
  | ⟨2, _⟩ =>
    show win0_2.index ⟨(i 0).val / 2, ht⟩ (2 : Fin 4) * 256 ≤ (i 2).val ∧ (i 2).val < win0_2.index ⟨(i 0).val / 2, ht⟩ (2 : Fin 4) * 256 + 256
    rw [a22]; omega
  | ⟨3, _⟩ =>
    show win0_2.index ⟨(i 0).val / 2, ht⟩ (3 : Fin 4) * 256 ≤ (i 3).val ∧ (i 3).val < win0_2.index ⟨(i 0).val / 2, ht⟩ (3 : Fin 4) * 256 + 256
    rw [a23]; omega

/-- So the result array ends holding the filter of the padded image and the weight maps as launched. -/
theorem final (c : Dev nD) :
    (dats m 0 c).arrAt 2 cfg0.N
      = fun i => filt (padT (m ((c : Thread nD τ).loc main_arg0))) (m ((c : Thread nD τ).loc main_arg1)) i := by
  rw [(dats m 0 c).arrAt_eq_of_cover 2 (G m c) (fun t _ => flushed_eq m c t) cover]
  show (fun i => filt (V m c main_v0) (V m c main_arg1) i) = _
  rw [V_main_v0 m c, V_main_arg1 m c]

/-- Every weakly fair execution of the kernel's program terminates with its result array at that filter and its
    two arguments unchanged: the frame run, its output array named and read. -/
theorem run : θ_run defs (onTc (τ := τ) (main (F := Ideal))) ⟨m, fun _ => 0, ρ⟩ fun r => ∀ c : Dev nD,
      r.2.mem ((c : Thread nD τ).loc main_v1)
          = (fun i => filt (padT (m ((c : Thread nD τ).loc main_arg0))) (m ((c : Thread nD τ).loc main_arg1)) i)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c)))⟩)
    (run_main m ρ)

end Cert.KernelIdeal.KValue

end
-- ==== Proof.RefRun.lean ====
/-
  The reference program's @main as one straight line of host operations, and its run.
  @main normalises the weight maps (eight operations and a constant), calls the reflect-padding function on the
  image (the callee's sixteen operations, listed here at the call site over the call's own buffers: two row flips and
  two column flips, each a slice, a reversal and a concatenation, plus the two slices the callee computes and never
  uses), then accumulates the nine window products from zero (two operations, then five per window). Every weakly
  fair execution ends with each buffer at the fold of these operations over the launch contents.
-/
import proofs.«118978_j32779190403118_1_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations before the call: the weights' normalisation and the call's constant operand. -/
abbrev opsNorm : List (HloOp τ sig (Elt F)) :=
  [ StableHlo.nullary main_cst (constant S_ .f32 0x00000000#32),
    StableHlo.binary main_arg1 main_cst main_v0 ((fun x v => Host.reduceAdd x v reducesTo_S64x9x256x256_S64x256x256_d1 h_S_) : (⟨S64x9x256x256, .f32⟩ : BufTy).Contents (Elt F) → (⟨S_, .f32⟩ : BufTy).Contents (Elt F) → (⟨S64x256x256, .f32⟩ : BufTy).Contents (Elt F)),
    StableHlo.unary main_v0 main_v1 (broadcastInDim S64x1x256x256 ![0, 2, 3] bcast_S64x256x256_S64x1x256x256_0_2_3 : (⟨S64x256x256, .f32⟩ : BufTy).Contents (Elt F) → (⟨S64x1x256x256, .f32⟩ : BufTy).Contents (Elt F)),
    StableHlo.nullary main_cst_0 (constant S_ .f32 0x3089705F#32),
    StableHlo.unary main_cst_0 main_v2 (broadcastInDim S64x1x256x256 ![] bcast_S_S64x1x256x256 : (⟨S_, .f32⟩ : BufTy).Contents (Elt F) → (⟨S64x1x256x256, .f32⟩ : BufTy).Contents (Elt F)),
    StableHlo.binary main_v1 main_v2 main_v3 (addf : (⟨S64x1x256x256, .f32⟩ : BufTy).Contents (Elt F) → (⟨S64x1x256x256, .f32⟩ : BufTy).Contents (Elt F) → (⟨S64x1x256x256, .f32⟩ : BufTy).Contents (Elt F)),
    StableHlo.unary main_v3 main_v4 (broadcastInDim S64x9x256x256 ![0, 1, 2, 3] bcast_S64x1x256x256_S64x9x256x256_0_1_2_3 : (⟨S64x1x256x256, .f32⟩ : BufTy).Contents (Elt F) → (⟨S64x9x256x256, .f32⟩ : BufTy).Contents (Elt F)),
    StableHlo.binary main_arg1 main_v4 main_v5 (Host.divf : (⟨S64x9x256x256, .f32⟩ : BufTy).Contents (Elt F) → (⟨S64x9x256x256, .f32⟩ : BufTy).Contents (Elt F) → (⟨S64x9x256x256, .f32⟩ : BufTy).Contents (Elt F)),
    StableHlo.nullary main_c (constantI S_ 32 0#32) ]

/-- The padding function's operations, over the call's buffers. -/
abbrev opsPad : List (HloOp τ sig (Elt F)) :=
  [ StableHlo.TRef.unary (.of main_arg0 : StableHlo.TRef sig ⟨S64x3x256x256, .f32⟩) main_call0.v0 (extractStridedSlice S64x3x1x256 ![0, 0, 0, 0] · slices_S64x3x256x256_S64x3x1x256_0_0_0_0),
    StableHlo.TRef.unary (.of main_arg0 : StableHlo.TRef sig ⟨S64x3x256x256, .f32⟩) main_call0.v1 (extractStridedSlice S64x3x1x256 ![0, 0, 1, 0] · slices_S64x3x256x256_S64x3x1x256_0_0_1_0),
    StableHlo.TRef.unary main_call0.v1 main_call0.call0.v0 (Host.reverse [2]),
    StableHlo.TRef.binary main_call0.call0.v0 (.of main_arg0 : StableHlo.TRef sig ⟨S64x3x256x256, .f32⟩) main_call0.v3 (fun a b => concatenate S64x3x257x256 2 [⟨S64x3x1x256, a⟩, ⟨S64x3x256x256, b⟩] concatenates_S64x3x1x256_S64x3x256x256_S64x3x257x256_d2),
    StableHlo.TRef.unary main_call0.v3 main_call0.v4 (extractStridedSlice S64x3x1x256 ![0, 0, 256, 0] · slices_S64x3x257x256_S64x3x1x256_0_0_256_0),
    StableHlo.TRef.unary main_call0.v3 main_call0.v5 (extractStridedSlice S64x3x1x256 ![0, 0, 255, 0] · slices_S64x3x257x256_S64x3x1x256_0_0_255_0),
    StableHlo.TRef.unary main_call0.v5 main_call0.call1.v0 (Host.reverse [2]),
    StableHlo.TRef.binary main_call0.v3 main_call0.call1.v0 main_call0.v7 (fun a b => concatenate S64x3x258x256 2 [⟨S64x3x257x256, a⟩, ⟨S64x3x1x256, b⟩] concatenates_S64x3x257x256_S64x3x1x256_S64x3x258x256_d2),
    StableHlo.TRef.unary main_call0.v7 main_call0.v8 (extractStridedSlice S64x3x258x1 ![0, 0, 0, 0] · slices_S64x3x258x256_S64x3x258x1_0_0_0_0),
    StableHlo.TRef.unary main_call0.v7 main_call0.v9 (extractStridedSlice S64x3x258x1 ![0, 0, 0, 1] · slices_S64x3x258x256_S64x3x258x1_0_0_0_1),
    StableHlo.TRef.unary main_call0.v9 main_call0.call2.v0 (Host.reverse [3]),
    StableHlo.TRef.binary main_call0.call2.v0 main_call0.v7 main_call0.v11 (fun a b => concatenate S64x3x258x257 3 [⟨S64x3x258x1, a⟩, ⟨S64x3x258x256, b⟩] concatenates_S64x3x258x1_S64x3x258x256_S64x3x258x257_d3),
    StableHlo.TRef.unary main_call0.v11 main_call0.v12 (extractStridedSlice S64x3x258x1 ![0, 0, 0, 256] · slices_S64x3x258x257_S64x3x258x1_0_0_0_256),
    StableHlo.TRef.unary main_call0.v11 main_call0.v13 (extractStridedSlice S64x3x258x1 ![0, 0, 0, 255] · slices_S64x3x258x257_S64x3x258x1_0_0_0_255),
    StableHlo.TRef.unary main_call0.v13 main_call0.call3.v0 (Host.reverse [3]),
    StableHlo.TRef.binary main_call0.v11 main_call0.call3.v0 main_call0.v15 (fun a b => concatenate S64x3x258x258 3 [⟨S64x3x258x257, a⟩, ⟨S64x3x258x1, b⟩] concatenates_S64x3x258x257_S64x3x258x1_S64x3x258x258_d3) ]

/-- The padding function's first four operations: the top row. -/
abbrev opsPadTop : List (HloOp τ sig (Elt F)) :=
  [ StableHlo.TRef.unary (.of main_arg0 : StableHlo.TRef sig ⟨S64x3x256x256, .f32⟩) main_call0.v0 (extractStridedSlice S64x3x1x256 ![0, 0, 0, 0] · slices_S64x3x256x256_S64x3x1x256_0_0_0_0),
    StableHlo.TRef.unary (.of main_arg0 : StableHlo.TRef sig ⟨S64x3x256x256, .f32⟩) main_call0.v1 (extractStridedSlice S64x3x1x256 ![0, 0, 1, 0] · slices_S64x3x256x256_S64x3x1x256_0_0_1_0),
    StableHlo.TRef.unary main_call0.v1 main_call0.call0.v0 (Host.reverse [2]),
    StableHlo.TRef.binary main_call0.call0.v0 (.of main_arg0 : StableHlo.TRef sig ⟨S64x3x256x256, .f32⟩) main_call0.v3 (fun a b => concatenate S64x3x257x256 2 [⟨S64x3x1x256, a⟩, ⟨S64x3x256x256, b⟩] concatenates_S64x3x1x256_S64x3x256x256_S64x3x257x256_d2) ]

/-- Its next four: the bottom row. -/
abbrev opsPadBottom : List (HloOp τ sig (Elt F)) :=
  [ StableHlo.TRef.unary main_call0.v3 main_call0.v4 (extractStridedSlice S64x3x1x256 ![0, 0, 256, 0] · slices_S64x3x257x256_S64x3x1x256_0_0_256_0),
    StableHlo.TRef.unary main_call0.v3 main_call0.v5 (extractStridedSlice S64x3x1x256 ![0, 0, 255, 0] · slices_S64x3x257x256_S64x3x1x256_0_0_255_0),
    StableHlo.TRef.unary main_call0.v5 main_call0.call1.v0 (Host.reverse [2]),
    StableHlo.TRef.binary main_call0.v3 main_call0.call1.v0 main_call0.v7 (fun a b => concatenate S64x3x258x256 2 [⟨S64x3x257x256, a⟩, ⟨S64x3x1x256, b⟩] concatenates_S64x3x257x256_S64x3x1x256_S64x3x258x256_d2) ]

/-- Its next four: the left column. -/
abbrev opsPadLeft : List (HloOp τ sig (Elt F)) :=
  [ StableHlo.TRef.unary main_call0.v7 main_call0.v8 (extractStridedSlice S64x3x258x1 ![0, 0, 0, 0] · slices_S64x3x258x256_S64x3x258x1_0_0_0_0),
    StableHlo.TRef.unary main_call0.v7 main_call0.v9 (extractStridedSlice S64x3x258x1 ![0, 0, 0, 1] · slices_S64x3x258x256_S64x3x258x1_0_0_0_1),
    StableHlo.TRef.unary main_call0.v9 main_call0.call2.v0 (Host.reverse [3]),
    StableHlo.TRef.binary main_call0.call2.v0 main_call0.v7 main_call0.v11 (fun a b => concatenate S64x3x258x257 3 [⟨S64x3x258x1, a⟩, ⟨S64x3x258x256, b⟩] concatenates_S64x3x258x1_S64x3x258x256_S64x3x258x257_d3) ]

/-- Its last four: the right column. -/
abbrev opsPadRight : List (HloOp τ sig (Elt F)) :=
  [ StableHlo.TRef.unary main_call0.v11 main_call0.v12 (extractStridedSlice S64x3x258x1 ![0, 0, 0, 256] · slices_S64x3x258x257_S64x3x258x1_0_0_0_256),
    StableHlo.TRef.unary main_call0.v11 main_call0.v13 (extractStridedSlice S64x3x258x1 ![0, 0, 0, 255] · slices_S64x3x258x257_S64x3x258x1_0_0_0_255),
    StableHlo.TRef.unary main_call0.v13 main_call0.call3.v0 (Host.reverse [3]),
    StableHlo.TRef.binary main_call0.v11 main_call0.call3.v0 main_call0.v15 (fun a b => concatenate S64x3x258x258 3 [⟨S64x3x258x257, a⟩, ⟨S64x3x258x1, b⟩] concatenates_S64x3x258x257_S64x3x258x1_S64x3x258x258_d3) ]

theorem opsPad_split : (opsPad : List (HloOp τ sig (Elt F))) = opsPadTop ++ (opsPadBottom ++ (opsPadLeft ++ opsPadRight)) := rfl

/-- The operations after the call: the nine window products accumulated from zero. -/
abbrev opsTaps : List (HloOp τ sig (Elt F)) :=
  [ StableHlo.nullary main_cst_1 (constant S_ .f32 0x00000000#32),
    StableHlo.unary main_cst_1 main_v7 (broadcastInDim S64x3x256x256 ![] bcast_S_S64x3x256x256 : (⟨S_, .f32⟩ : BufTy).Contents (Elt F) → (⟨S64x3x256x256, .f32⟩ : BufTy).Contents (Elt F)),
    StableHlo.unary main_v6 main_v8 ((extractStridedSlice S64x3x256x256 ![0, 0, 0, 0] · slices_S64x3x258x258_S64x3x256x256_0_0_0_0) : (⟨S64x3x258x258, .f32⟩ : BufTy).Contents (Elt F) → (⟨S64x3x256x256, .f32⟩ : BufTy).Contents (Elt F)),
    StableHlo.unary main_v5 main_v9 ((extractStridedSlice S64x1x256x256 ![0, 0, 0, 0] · slices_S64x9x256x256_S64x1x256x256_0_0_0_0) : (⟨S64x9x256x256, .f32⟩ : BufTy).Contents (Elt F) → (⟨S64x1x256x256, .f32⟩ : BufTy).Contents (Elt F)),
    StableHlo.unary main_v9 main_v10 (broadcastInDim S64x3x256x256 ![0, 1, 2, 3] bcast_S64x1x256x256_S64x3x256x256_0_1_2_3 : (⟨S64x1x256x256, .f32⟩ : BufTy).Contents (Elt F) → (⟨S64x3x256x256, .f32⟩ : BufTy).Contents (Elt F)),
    StableHlo.binary main_v8 main_v10 main_v11 (mulf : (⟨S64x3x256x256, .f32⟩ : BufTy).Contents (Elt F) → (⟨S64x3x256x256, .f32⟩ : BufTy).Contents (Elt F) → (⟨S64x3x256x256, .f32⟩ : BufTy).Contents (Elt F)),
    StableHlo.binary main_v7 main_v11 main_v12 (addf : (⟨S64x3x256x256, .f32⟩ : BufTy).Contents (Elt F) → (⟨S64x3x256x256, .f32⟩ : BufTy).Contents (Elt F) → (⟨S64x3x256x256, .f32⟩ : BufTy).Contents (Elt F)),
    StableHlo.unary main_v6 main_v13 ((extractStridedSlice S64x3x256x256 ![0, 0, 0, 1] · slices_S64x3x258x258_S64x3x256x256_0_0_0_1) : (⟨S64x3x258x258, .f32⟩ : BufTy).Contents (Elt F) → (⟨S64x3x256x256, .f32⟩ : BufTy).Contents (Elt F)),
    StableHlo.unary main_v5 main_v14 ((extractStridedSlice S64x1x256x256 ![0, 1, 0, 0] · slices_S64x9x256x256_S64x1x256x256_0_1_0_0) : (⟨S64x9x256x256, .f32⟩ : BufTy).Contents (Elt F) → (⟨S64x1x256x256, .f32⟩ : BufTy).Contents (Elt F)),
    StableHlo.unary main_v14 main_v15 (broadcastInDim S64x3x256x256 ![0, 1, 2, 3] bcast_S64x1x256x256_S64x3x256x256_0_1_2_3 : (⟨S64x1x256x256, .f32⟩ : BufTy).Contents (Elt F) → (⟨S64x3x256x256, .f32⟩ : BufTy).Contents (Elt F)),
    StableHlo.binary main_v13 main_v15 main_v16 (mulf : (⟨S64x3x256x256, .f32⟩ : BufTy).Contents (Elt F) → (⟨S64x3x256x256, .f32⟩ : BufTy).Contents (Elt F) → (⟨S64x3x256x256, .f32⟩ : BufTy).Contents (Elt F)),
    StableHlo.binary main_v12 main_v16 main_v17 (addf : (⟨S64x3x256x256, .f32⟩ : BufTy).Contents (Elt F) → (⟨S64x3x256x256, .f32⟩ : BufTy).Contents (Elt F) → (⟨S64x3x256x256, .f32⟩ : BufTy).Contents (Elt F)),
    StableHlo.unary main_v6 main_v18 ((extractStridedSlice S64x3x256x256 ![0, 0, 0, 2] · slices_S64x3x258x258_S64x3x256x256_0_0_0_2) : (⟨S64x3x258x258, .f32⟩ : BufTy).Contents (Elt F) → (⟨S64x3x256x256, .f32⟩ : BufTy).Contents (Elt F)),
    StableHlo.unary main_v5 main_v19 ((extractStridedSlice S64x1x256x256 ![0, 2, 0, 0] · slices_S64x9x256x256_S64x1x256x256_0_2_0_0) : (⟨S64x9x256x256, .f32⟩ : BufTy).Contents (Elt F) → (⟨S64x1x256x256, .f32⟩ : BufTy).Contents (Elt F)),
    StableHlo.unary main_v19 main_v20 (broadcastInDim S64x3x256x256 ![0, 1, 2, 3] bcast_S64x1x256x256_S64x3x256x256_0_1_2_3 : (⟨S64x1x256x256, .f32⟩ : BufTy).Contents (Elt F) → (⟨S64x3x256x256, .f32⟩ : BufTy).Contents (Elt F)),
    StableHlo.binary main_v18 main_v20 main_v21 (mulf : (⟨S64x3x256x256, .f32⟩ : BufTy).Contents (Elt F) → (⟨S64x3x256x256, .f32⟩ : BufTy).Contents (Elt F) → (⟨S64x3x256x256, .f32⟩ : BufTy).Contents (Elt F)),
    StableHlo.binary main_v17 main_v21 main_v22 (addf : (⟨S64x3x256x256, .f32⟩ : BufTy).Contents (Elt F) → (⟨S64x3x256x256, .f32⟩ : BufTy).Contents (Elt F) → (⟨S64x3x256x256, .f32⟩ : BufTy).Contents (Elt F)),
    StableHlo.unary main_v6 main_v23 ((extractStridedSlice S64x3x256x256 ![0, 0, 1, 0] · slices_S64x3x258x258_S64x3x256x256_0_0_1_0) : (⟨S64x3x258x258, .f32⟩ : BufTy).Contents (Elt F) → (⟨S64x3x256x256, .f32⟩ : BufTy).Contents (Elt F)),
    StableHlo.unary main_v5 main_v24 ((extractStridedSlice S64x1x256x256 ![0, 3, 0, 0] · slices_S64x9x256x256_S64x1x256x256_0_3_0_0) : (⟨S64x9x256x256, .f32⟩ : BufTy).Contents (Elt F) → (⟨S64x1x256x256, .f32⟩ : BufTy).Contents (Elt F)),
    StableHlo.unary main_v24 main_v25 (broadcastInDim S64x3x256x256 ![0, 1, 2, 3] bcast_S64x1x256x256_S64x3x256x256_0_1_2_3 : (⟨S64x1x256x256, .f32⟩ : BufTy).Contents (Elt F) → (⟨S64x3x256x256, .f32⟩ : BufTy).Contents (Elt F)),
    StableHlo.binary main_v23 main_v25 main_v26 (mulf : (⟨S64x3x256x256, .f32⟩ : BufTy).Contents (Elt F) → (⟨S64x3x256x256, .f32⟩ : BufTy).Contents (Elt F) → (⟨S64x3x256x256, .f32⟩ : BufTy).Contents (Elt F)),
    StableHlo.binary main_v22 main_v26 main_v27 (addf : (⟨S64x3x256x256, .f32⟩ : BufTy).Contents (Elt F) → (⟨S64x3x256x256, .f32⟩ : BufTy).Contents (Elt F) → (⟨S64x3x256x256, .f32⟩ : BufTy).Contents (Elt F)),
    StableHlo.unary main_v6 main_v28 ((extractStridedSlice S64x3x256x256 ![0, 0, 1, 1] · slices_S64x3x258x258_S64x3x256x256_0_0_1_1) : (⟨S64x3x258x258, .f32⟩ : BufTy).Contents (Elt F) → (⟨S64x3x256x256, .f32⟩ : BufTy).Contents (Elt F)),
    StableHlo.unary main_v5 main_v29 ((extractStridedSlice S64x1x256x256 ![0, 4, 0, 0] · slices_S64x9x256x256_S64x1x256x256_0_4_0_0) : (⟨S64x9x256x256, .f32⟩ : BufTy).Contents (Elt F) → (⟨S64x1x256x256, .f32⟩ : BufTy).Contents (Elt F)),
    StableHlo.unary main_v29 main_v30 (broadcastInDim S64x3x256x256 ![0, 1, 2, 3] bcast_S64x1x256x256_S64x3x256x256_0_1_2_3 : (⟨S64x1x256x256, .f32⟩ : BufTy).Contents (Elt F) → (⟨S64x3x256x256, .f32⟩ : BufTy).Contents (Elt F)),
    StableHlo.binary main_v28 main_v30 main_v31 (mulf : (⟨S64x3x256x256, .f32⟩ : BufTy).Contents (Elt F) → (⟨S64x3x256x256, .f32⟩ : BufTy).Contents (Elt F) → (⟨S64x3x256x256, .f32⟩ : BufTy).Contents (Elt F)),
    StableHlo.binary main_v27 main_v31 main_v32 (addf : (⟨S64x3x256x256, .f32⟩ : BufTy).Contents (Elt F) → (⟨S64x3x256x256, .f32⟩ : BufTy).Contents (Elt F) → (⟨S64x3x256x256, .f32⟩ : BufTy).Contents (Elt F)),
    StableHlo.unary main_v6 main_v33 ((extractStridedSlice S64x3x256x256 ![0, 0, 1, 2] · slices_S64x3x258x258_S64x3x256x256_0_0_1_2) : (⟨S64x3x258x258, .f32⟩ : BufTy).Contents (Elt F) → (⟨S64x3x256x256, .f32⟩ : BufTy).Contents (Elt F)),
    StableHlo.unary main_v5 main_v34 ((extractStridedSlice S64x1x256x256 ![0, 5, 0, 0] · slices_S64x9x256x256_S64x1x256x256_0_5_0_0) : (⟨S64x9x256x256, .f32⟩ : BufTy).Contents (Elt F) → (⟨S64x1x256x256, .f32⟩ : BufTy).Contents (Elt F)),
    StableHlo.unary main_v34 main_v35 (broadcastInDim S64x3x256x256 ![0, 1, 2, 3] bcast_S64x1x256x256_S64x3x256x256_0_1_2_3 : (⟨S64x1x256x256, .f32⟩ : BufTy).Contents (Elt F) → (⟨S64x3x256x256, .f32⟩ : BufTy).Contents (Elt F)),
    StableHlo.binary main_v33 main_v35 main_v36 (mulf : (⟨S64x3x256x256, .f32⟩ : BufTy).Contents (Elt F) → (⟨S64x3x256x256, .f32⟩ : BufTy).Contents (Elt F) → (⟨S64x3x256x256, .f32⟩ : BufTy).Contents (Elt F)),
    StableHlo.binary main_v32 main_v36 main_v37 (addf : (⟨S64x3x256x256, .f32⟩ : BufTy).Contents (Elt F) → (⟨S64x3x256x256, .f32⟩ : BufTy).Contents (Elt F) → (⟨S64x3x256x256, .f32⟩ : BufTy).Contents (Elt F)),
    StableHlo.unary main_v6 main_v38 ((extractStridedSlice S64x3x256x256 ![0, 0, 2, 0] · slices_S64x3x258x258_S64x3x256x256_0_0_2_0) : (⟨S64x3x258x258, .f32⟩ : BufTy).Contents (Elt F) → (⟨S64x3x256x256, .f32⟩ : BufTy).Contents (Elt F)),
    StableHlo.unary main_v5 main_v39 ((extractStridedSlice S64x1x256x256 ![0, 6, 0, 0] · slices_S64x9x256x256_S64x1x256x256_0_6_0_0) : (⟨S64x9x256x256, .f32⟩ : BufTy).Contents (Elt F) → (⟨S64x1x256x256, .f32⟩ : BufTy).Contents (Elt F)),
    StableHlo.unary main_v39 main_v40 (broadcastInDim S64x3x256x256 ![0, 1, 2, 3] bcast_S64x1x256x256_S64x3x256x256_0_1_2_3 : (⟨S64x1x256x256, .f32⟩ : BufTy).Contents (Elt F) → (⟨S64x3x256x256, .f32⟩ : BufTy).Contents (Elt F)),
    StableHlo.binary main_v38 main_v40 main_v41 (mulf : (⟨S64x3x256x256, .f32⟩ : BufTy).Contents (Elt F) → (⟨S64x3x256x256, .f32⟩ : BufTy).Contents (Elt F) → (⟨S64x3x256x256, .f32⟩ : BufTy).Contents (Elt F)),
    StableHlo.binary main_v37 main_v41 main_v42 (addf : (⟨S64x3x256x256, .f32⟩ : BufTy).Contents (Elt F) → (⟨S64x3x256x256, .f32⟩ : BufTy).Contents (Elt F) → (⟨S64x3x256x256, .f32⟩ : BufTy).Contents (Elt F)),
    StableHlo.unary main_v6 main_v43 ((extractStridedSlice S64x3x256x256 ![0, 0, 2, 1] · slices_S64x3x258x258_S64x3x256x256_0_0_2_1) : (⟨S64x3x258x258, .f32⟩ : BufTy).Contents (Elt F) → (⟨S64x3x256x256, .f32⟩ : BufTy).Contents (Elt F)),
    StableHlo.unary main_v5 main_v44 ((extractStridedSlice S64x1x256x256 ![0, 7, 0, 0] · slices_S64x9x256x256_S64x1x256x256_0_7_0_0) : (⟨S64x9x256x256, .f32⟩ : BufTy).Contents (Elt F) → (⟨S64x1x256x256, .f32⟩ : BufTy).Contents (Elt F)),
    StableHlo.unary main_v44 main_v45 (broadcastInDim S64x3x256x256 ![0, 1, 2, 3] bcast_S64x1x256x256_S64x3x256x256_0_1_2_3 : (⟨S64x1x256x256, .f32⟩ : BufTy).Contents (Elt F) → (⟨S64x3x256x256, .f32⟩ : BufTy).Contents (Elt F)),
    StableHlo.binary main_v43 main_v45 main_v46 (mulf : (⟨S64x3x256x256, .f32⟩ : BufTy).Contents (Elt F) → (⟨S64x3x256x256, .f32⟩ : BufTy).Contents (Elt F) → (⟨S64x3x256x256, .f32⟩ : BufTy).Contents (Elt F)),
    StableHlo.binary main_v42 main_v46 main_v47 (addf : (⟨S64x3x256x256, .f32⟩ : BufTy).Contents (Elt F) → (⟨S64x3x256x256, .f32⟩ : BufTy).Contents (Elt F) → (⟨S64x3x256x256, .f32⟩ : BufTy).Contents (Elt F)),
    StableHlo.unary main_v6 main_v48 ((extractStridedSlice S64x3x256x256 ![0, 0, 2, 2] · slices_S64x3x258x258_S64x3x256x256_0_0_2_2) : (⟨S64x3x258x258, .f32⟩ : BufTy).Contents (Elt F) → (⟨S64x3x256x256, .f32⟩ : BufTy).Contents (Elt F)),
    StableHlo.unary main_v5 main_v49 ((extractStridedSlice S64x1x256x256 ![0, 8, 0, 0] · slices_S64x9x256x256_S64x1x256x256_0_8_0_0) : (⟨S64x9x256x256, .f32⟩ : BufTy).Contents (Elt F) → (⟨S64x1x256x256, .f32⟩ : BufTy).Contents (Elt F)),
    StableHlo.unary main_v49 main_v50 (broadcastInDim S64x3x256x256 ![0, 1, 2, 3] bcast_S64x1x256x256_S64x3x256x256_0_1_2_3 : (⟨S64x1x256x256, .f32⟩ : BufTy).Contents (Elt F) → (⟨S64x3x256x256, .f32⟩ : BufTy).Contents (Elt F)),
    StableHlo.binary main_v48 main_v50 main_v51 (mulf : (⟨S64x3x256x256, .f32⟩ : BufTy).Contents (Elt F) → (⟨S64x3x256x256, .f32⟩ : BufTy).Contents (Elt F) → (⟨S64x3x256x256, .f32⟩ : BufTy).Contents (Elt F)),
    StableHlo.binary main_v47 main_v51 main_v52 (addf : (⟨S64x3x256x256, .f32⟩ : BufTy).Contents (Elt F) → (⟨S64x3x256x256, .f32⟩ : BufTy).Contents (Elt F) → (⟨S64x3x256x256, .f32⟩ : BufTy).Contents (Elt F)) ]

/-- @main's 72 operations in order, the padding function's at its call. -/
abbrev ops : List (HloOp τ sig (Elt F)) :=
  [ StableHlo.nullary main_cst (constant S_ .f32 0x00000000#32),
    StableHlo.binary main_arg1 main_cst main_v0 ((fun x v => Host.reduceAdd x v reducesTo_S64x9x256x256_S64x256x256_d1 h_S_) : (⟨S64x9x256x256, .f32⟩ : BufTy).Contents (Elt F) → (⟨S_, .f32⟩ : BufTy).Contents (Elt F) → (⟨S64x256x256, .f32⟩ : BufTy).Contents (Elt F)),
    StableHlo.unary main_v0 main_v1 (broadcastInDim S64x1x256x256 ![0, 2, 3] bcast_S64x256x256_S64x1x256x256_0_2_3 : (⟨S64x256x256, .f32⟩ : BufTy).Contents (Elt F) → (⟨S64x1x256x256, .f32⟩ : BufTy).Contents (Elt F)),
    StableHlo.nullary main_cst_0 (constant S_ .f32 0x3089705F#32),
    StableHlo.unary main_cst_0 main_v2 (broadcastInDim S64x1x256x256 ![] bcast_S_S64x1x256x256 : (⟨S_, .f32⟩ : BufTy).Contents (Elt F) → (⟨S64x1x256x256, .f32⟩ : BufTy).Contents (Elt F)),
    StableHlo.binary main_v1 main_v2 main_v3 (addf : (⟨S64x1x256x256, .f32⟩ : BufTy).Contents (Elt F) → (⟨S64x1x256x256, .f32⟩ : BufTy).Contents (Elt F) → (⟨S64x1x256x256, .f32⟩ : BufTy).Contents (Elt F)),
    StableHlo.unary main_v3 main_v4 (broadcastInDim S64x9x256x256 ![0, 1, 2, 3] bcast_S64x1x256x256_S64x9x256x256_0_1_2_3 : (⟨S64x1x256x256, .f32⟩ : BufTy).Contents (Elt F) → (⟨S64x9x256x256, .f32⟩ : BufTy).Contents (Elt F)),
    StableHlo.binary main_arg1 main_v4 main_v5 (Host.divf : (⟨S64x9x256x256, .f32⟩ : BufTy).Contents (Elt F) → (⟨S64x9x256x256, .f32⟩ : BufTy).Contents (Elt F) → (⟨S64x9x256x256, .f32⟩ : BufTy).Contents (Elt F)),
    StableHlo.nullary main_c (constantI S_ 32 0#32),
    StableHlo.TRef.unary (.of main_arg0 : StableHlo.TRef sig ⟨S64x3x256x256, .f32⟩) main_call0.v0 (extractStridedSlice S64x3x1x256 ![0, 0, 0, 0] · slices_S64x3x256x256_S64x3x1x256_0_0_0_0),
    StableHlo.TRef.unary (.of main_arg0 : StableHlo.TRef sig ⟨S64x3x256x256, .f32⟩) main_call0.v1 (extractStridedSlice S64x3x1x256 ![0, 0, 1, 0] · slices_S64x3x256x256_S64x3x1x256_0_0_1_0),
    StableHlo.TRef.unary main_call0.v1 main_call0.call0.v0 (Host.reverse [2]),
    StableHlo.TRef.binary main_call0.call0.v0 (.of main_arg0 : StableHlo.TRef sig ⟨S64x3x256x256, .f32⟩) main_call0.v3 (fun a b => concatenate S64x3x257x256 2 [⟨S64x3x1x256, a⟩, ⟨S64x3x256x256, b⟩] concatenates_S64x3x1x256_S64x3x256x256_S64x3x257x256_d2),
    StableHlo.TRef.unary main_call0.v3 main_call0.v4 (extractStridedSlice S64x3x1x256 ![0, 0, 256, 0] · slices_S64x3x257x256_S64x3x1x256_0_0_256_0),
    StableHlo.TRef.unary main_call0.v3 main_call0.v5 (extractStridedSlice S64x3x1x256 ![0, 0, 255, 0] · slices_S64x3x257x256_S64x3x1x256_0_0_255_0),
    StableHlo.TRef.unary main_call0.v5 main_call0.call1.v0 (Host.reverse [2]),
    StableHlo.TRef.binary main_call0.v3 main_call0.call1.v0 main_call0.v7 (fun a b => concatenate S64x3x258x256 2 [⟨S64x3x257x256, a⟩, ⟨S64x3x1x256, b⟩] concatenates_S64x3x257x256_S64x3x1x256_S64x3x258x256_d2),
    StableHlo.TRef.unary main_call0.v7 main_call0.v8 (extractStridedSlice S64x3x258x1 ![0, 0, 0, 0] · slices_S64x3x258x256_S64x3x258x1_0_0_0_0),
    StableHlo.TRef.unary main_call0.v7 main_call0.v9 (extractStridedSlice S64x3x258x1 ![0, 0, 0, 1] · slices_S64x3x258x256_S64x3x258x1_0_0_0_1),
    StableHlo.TRef.unary main_call0.v9 main_call0.call2.v0 (Host.reverse [3]),
    StableHlo.TRef.binary main_call0.call2.v0 main_call0.v7 main_call0.v11 (fun a b => concatenate S64x3x258x257 3 [⟨S64x3x258x1, a⟩, ⟨S64x3x258x256, b⟩] concatenates_S64x3x258x1_S64x3x258x256_S64x3x258x257_d3),
    StableHlo.TRef.unary main_call0.v11 main_call0.v12 (extractStridedSlice S64x3x258x1 ![0, 0, 0, 256] · slices_S64x3x258x257_S64x3x258x1_0_0_0_256),
    StableHlo.TRef.unary main_call0.v11 main_call0.v13 (extractStridedSlice S64x3x258x1 ![0, 0, 0, 255] · slices_S64x3x258x257_S64x3x258x1_0_0_0_255),
    StableHlo.TRef.unary main_call0.v13 main_call0.call3.v0 (Host.reverse [3]),
    StableHlo.TRef.binary main_call0.v11 main_call0.call3.v0 main_call0.v15 (fun a b => concatenate S64x3x258x258 3 [⟨S64x3x258x257, a⟩, ⟨S64x3x258x1, b⟩] concatenates_S64x3x258x257_S64x3x258x1_S64x3x258x258_d3),
    StableHlo.nullary main_cst_1 (constant S_ .f32 0x00000000#32),
    StableHlo.unary main_cst_1 main_v7 (broadcastInDim S64x3x256x256 ![] bcast_S_S64x3x256x256 : (⟨S_, .f32⟩ : BufTy).Contents (Elt F) → (⟨S64x3x256x256, .f32⟩ : BufTy).Contents (Elt F)),
    StableHlo.unary main_v6 main_v8 ((extractStridedSlice S64x3x256x256 ![0, 0, 0, 0] · slices_S64x3x258x258_S64x3x256x256_0_0_0_0) : (⟨S64x3x258x258, .f32⟩ : BufTy).Contents (Elt F) → (⟨S64x3x256x256, .f32⟩ : BufTy).Contents (Elt F)),
    StableHlo.unary main_v5 main_v9 ((extractStridedSlice S64x1x256x256 ![0, 0, 0, 0] · slices_S64x9x256x256_S64x1x256x256_0_0_0_0) : (⟨S64x9x256x256, .f32⟩ : BufTy).Contents (Elt F) → (⟨S64x1x256x256, .f32⟩ : BufTy).Contents (Elt F)),
    StableHlo.unary main_v9 main_v10 (broadcastInDim S64x3x256x256 ![0, 1, 2, 3] bcast_S64x1x256x256_S64x3x256x256_0_1_2_3 : (⟨S64x1x256x256, .f32⟩ : BufTy).Contents (Elt F) → (⟨S64x3x256x256, .f32⟩ : BufTy).Contents (Elt F)),
    StableHlo.binary main_v8 main_v10 main_v11 (mulf : (⟨S64x3x256x256, .f32⟩ : BufTy).Contents (Elt F) → (⟨S64x3x256x256, .f32⟩ : BufTy).Contents (Elt F) → (⟨S64x3x256x256, .f32⟩ : BufTy).Contents (Elt F)),
    StableHlo.binary main_v7 main_v11 main_v12 (addf : (⟨S64x3x256x256, .f32⟩ : BufTy).Contents (Elt F) → (⟨S64x3x256x256, .f32⟩ : BufTy).Contents (Elt F) → (⟨S64x3x256x256, .f32⟩ : BufTy).Contents (Elt F)),
    StableHlo.unary main_v6 main_v13 ((extractStridedSlice S64x3x256x256 ![0, 0, 0, 1] · slices_S64x3x258x258_S64x3x256x256_0_0_0_1) : (⟨S64x3x258x258, .f32⟩ : BufTy).Contents (Elt F) → (⟨S64x3x256x256, .f32⟩ : BufTy).Contents (Elt F)),
    StableHlo.unary main_v5 main_v14 ((extractStridedSlice S64x1x256x256 ![0, 1, 0, 0] · slices_S64x9x256x256_S64x1x256x256_0_1_0_0) : (⟨S64x9x256x256, .f32⟩ : BufTy).Contents (Elt F) → (⟨S64x1x256x256, .f32⟩ : BufTy).Contents (Elt F)),
    StableHlo.unary main_v14 main_v15 (broadcastInDim S64x3x256x256 ![0, 1, 2, 3] bcast_S64x1x256x256_S64x3x256x256_0_1_2_3 : (⟨S64x1x256x256, .f32⟩ : BufTy).Contents (Elt F) → (⟨S64x3x256x256, .f32⟩ : BufTy).Contents (Elt F)),
    StableHlo.binary main_v13 main_v15 main_v16 (mulf : (⟨S64x3x256x256, .f32⟩ : BufTy).Contents (Elt F) → (⟨S64x3x256x256, .f32⟩ : BufTy).Contents (Elt F) → (⟨S64x3x256x256, .f32⟩ : BufTy).Contents (Elt F)),
    StableHlo.binary main_v12 main_v16 main_v17 (addf : (⟨S64x3x256x256, .f32⟩ : BufTy).Contents (Elt F) → (⟨S64x3x256x256, .f32⟩ : BufTy).Contents (Elt F) → (⟨S64x3x256x256, .f32⟩ : BufTy).Contents (Elt F)),
    StableHlo.unary main_v6 main_v18 ((extractStridedSlice S64x3x256x256 ![0, 0, 0, 2] · slices_S64x3x258x258_S64x3x256x256_0_0_0_2) : (⟨S64x3x258x258, .f32⟩ : BufTy).Contents (Elt F) → (⟨S64x3x256x256, .f32⟩ : BufTy).Contents (Elt F)),
    StableHlo.unary main_v5 main_v19 ((extractStridedSlice S64x1x256x256 ![0, 2, 0, 0] · slices_S64x9x256x256_S64x1x256x256_0_2_0_0) : (⟨S64x9x256x256, .f32⟩ : BufTy).Contents (Elt F) → (⟨S64x1x256x256, .f32⟩ : BufTy).Contents (Elt F)),
    StableHlo.unary main_v19 main_v20 (broadcastInDim S64x3x256x256 ![0, 1, 2, 3] bcast_S64x1x256x256_S64x3x256x256_0_1_2_3 : (⟨S64x1x256x256, .f32⟩ : BufTy).Contents (Elt F) → (⟨S64x3x256x256, .f32⟩ : BufTy).Contents (Elt F)),
    StableHlo.binary main_v18 main_v20 main_v21 (mulf : (⟨S64x3x256x256, .f32⟩ : BufTy).Contents (Elt F) → (⟨S64x3x256x256, .f32⟩ : BufTy).Contents (Elt F) → (⟨S64x3x256x256, .f32⟩ : BufTy).Contents (Elt F)),
    StableHlo.binary main_v17 main_v21 main_v22 (addf : (⟨S64x3x256x256, .f32⟩ : BufTy).Contents (Elt F) → (⟨S64x3x256x256, .f32⟩ : BufTy).Contents (Elt F) → (⟨S64x3x256x256, .f32⟩ : BufTy).Contents (Elt F)),
    StableHlo.unary main_v6 main_v23 ((extractStridedSlice S64x3x256x256 ![0, 0, 1, 0] · slices_S64x3x258x258_S64x3x256x256_0_0_1_0) : (⟨S64x3x258x258, .f32⟩ : BufTy).Contents (Elt F) → (⟨S64x3x256x256, .f32⟩ : BufTy).Contents (Elt F)),
    StableHlo.unary main_v5 main_v24 ((extractStridedSlice S64x1x256x256 ![0, 3, 0, 0] · slices_S64x9x256x256_S64x1x256x256_0_3_0_0) : (⟨S64x9x256x256, .f32⟩ : BufTy).Contents (Elt F) → (⟨S64x1x256x256, .f32⟩ : BufTy).Contents (Elt F)),
    StableHlo.unary main_v24 main_v25 (broadcastInDim S64x3x256x256 ![0, 1, 2, 3] bcast_S64x1x256x256_S64x3x256x256_0_1_2_3 : (⟨S64x1x256x256, .f32⟩ : BufTy).Contents (Elt F) → (⟨S64x3x256x256, .f32⟩ : BufTy).Contents (Elt F)),
    StableHlo.binary main_v23 main_v25 main_v26 (mulf : (⟨S64x3x256x256, .f32⟩ : BufTy).Contents (Elt F) → (⟨S64x3x256x256, .f32⟩ : BufTy).Contents (Elt F) → (⟨S64x3x256x256, .f32⟩ : BufTy).Contents (Elt F)),
    StableHlo.binary main_v22 main_v26 main_v27 (addf : (⟨S64x3x256x256, .f32⟩ : BufTy).Contents (Elt F) → (⟨S64x3x256x256, .f32⟩ : BufTy).Contents (Elt F) → (⟨S64x3x256x256, .f32⟩ : BufTy).Contents (Elt F)),
    StableHlo.unary main_v6 main_v28 ((extractStridedSlice S64x3x256x256 ![0, 0, 1, 1] · slices_S64x3x258x258_S64x3x256x256_0_0_1_1) : (⟨S64x3x258x258, .f32⟩ : BufTy).Contents (Elt F) → (⟨S64x3x256x256, .f32⟩ : BufTy).Contents (Elt F)),
    StableHlo.unary main_v5 main_v29 ((extractStridedSlice S64x1x256x256 ![0, 4, 0, 0] · slices_S64x9x256x256_S64x1x256x256_0_4_0_0) : (⟨S64x9x256x256, .f32⟩ : BufTy).Contents (Elt F) → (⟨S64x1x256x256, .f32⟩ : BufTy).Contents (Elt F)),
    StableHlo.unary main_v29 main_v30 (broadcastInDim S64x3x256x256 ![0, 1, 2, 3] bcast_S64x1x256x256_S64x3x256x256_0_1_2_3 : (⟨S64x1x256x256, .f32⟩ : BufTy).Contents (Elt F) → (⟨S64x3x256x256, .f32⟩ : BufTy).Contents (Elt F)),
    StableHlo.binary main_v28 main_v30 main_v31 (mulf : (⟨S64x3x256x256, .f32⟩ : BufTy).Contents (Elt F) → (⟨S64x3x256x256, .f32⟩ : BufTy).Contents (Elt F) → (⟨S64x3x256x256, .f32⟩ : BufTy).Contents (Elt F)),
    StableHlo.binary main_v27 main_v31 main_v32 (addf : (⟨S64x3x256x256, .f32⟩ : BufTy).Contents (Elt F) → (⟨S64x3x256x256, .f32⟩ : BufTy).Contents (Elt F) → (⟨S64x3x256x256, .f32⟩ : BufTy).Contents (Elt F)),
    StableHlo.unary main_v6 main_v33 ((extractStridedSlice S64x3x256x256 ![0, 0, 1, 2] · slices_S64x3x258x258_S64x3x256x256_0_0_1_2) : (⟨S64x3x258x258, .f32⟩ : BufTy).Contents (Elt F) → (⟨S64x3x256x256, .f32⟩ : BufTy).Contents (Elt F)),
    StableHlo.unary main_v5 main_v34 ((extractStridedSlice S64x1x256x256 ![0, 5, 0, 0] · slices_S64x9x256x256_S64x1x256x256_0_5_0_0) : (⟨S64x9x256x256, .f32⟩ : BufTy).Contents (Elt F) → (⟨S64x1x256x256, .f32⟩ : BufTy).Contents (Elt F)),
    StableHlo.unary main_v34 main_v35 (broadcastInDim S64x3x256x256 ![0, 1, 2, 3] bcast_S64x1x256x256_S64x3x256x256_0_1_2_3 : (⟨S64x1x256x256, .f32⟩ : BufTy).Contents (Elt F) → (⟨S64x3x256x256, .f32⟩ : BufTy).Contents (Elt F)),
    StableHlo.binary main_v33 main_v35 main_v36 (mulf : (⟨S64x3x256x256, .f32⟩ : BufTy).Contents (Elt F) → (⟨S64x3x256x256, .f32⟩ : BufTy).Contents (Elt F) → (⟨S64x3x256x256, .f32⟩ : BufTy).Contents (Elt F)),
    StableHlo.binary main_v32 main_v36 main_v37 (addf : (⟨S64x3x256x256, .f32⟩ : BufTy).Contents (Elt F) → (⟨S64x3x256x256, .f32⟩ : BufTy).Contents (Elt F) → (⟨S64x3x256x256, .f32⟩ : BufTy).Contents (Elt F)),
    StableHlo.unary main_v6 main_v38 ((extractStridedSlice S64x3x256x256 ![0, 0, 2, 0] · slices_S64x3x258x258_S64x3x256x256_0_0_2_0) : (⟨S64x3x258x258, .f32⟩ : BufTy).Contents (Elt F) → (⟨S64x3x256x256, .f32⟩ : BufTy).Contents (Elt F)),
    StableHlo.unary main_v5 main_v39 ((extractStridedSlice S64x1x256x256 ![0, 6, 0, 0] · slices_S64x9x256x256_S64x1x256x256_0_6_0_0) : (⟨S64x9x256x256, .f32⟩ : BufTy).Contents (Elt F) → (⟨S64x1x256x256, .f32⟩ : BufTy).Contents (Elt F)),
    StableHlo.unary main_v39 main_v40 (broadcastInDim S64x3x256x256 ![0, 1, 2, 3] bcast_S64x1x256x256_S64x3x256x256_0_1_2_3 : (⟨S64x1x256x256, .f32⟩ : BufTy).Contents (Elt F) → (⟨S64x3x256x256, .f32⟩ : BufTy).Contents (Elt F)),
    StableHlo.binary main_v38 main_v40 main_v41 (mulf : (⟨S64x3x256x256, .f32⟩ : BufTy).Contents (Elt F) → (⟨S64x3x256x256, .f32⟩ : BufTy).Contents (Elt F) → (⟨S64x3x256x256, .f32⟩ : BufTy).Contents (Elt F)),
    StableHlo.binary main_v37 main_v41 main_v42 (addf : (⟨S64x3x256x256, .f32⟩ : BufTy).Contents (Elt F) → (⟨S64x3x256x256, .f32⟩ : BufTy).Contents (Elt F) → (⟨S64x3x256x256, .f32⟩ : BufTy).Contents (Elt F)),
    StableHlo.unary main_v6 main_v43 ((extractStridedSlice S64x3x256x256 ![0, 0, 2, 1] · slices_S64x3x258x258_S64x3x256x256_0_0_2_1) : (⟨S64x3x258x258, .f32⟩ : BufTy).Contents (Elt F) → (⟨S64x3x256x256, .f32⟩ : BufTy).Contents (Elt F)),
    StableHlo.unary main_v5 main_v44 ((extractStridedSlice S64x1x256x256 ![0, 7, 0, 0] · slices_S64x9x256x256_S64x1x256x256_0_7_0_0) : (⟨S64x9x256x256, .f32⟩ : BufTy).Contents (Elt F) → (⟨S64x1x256x256, .f32⟩ : BufTy).Contents (Elt F)),
    StableHlo.unary main_v44 main_v45 (broadcastInDim S64x3x256x256 ![0, 1, 2, 3] bcast_S64x1x256x256_S64x3x256x256_0_1_2_3 : (⟨S64x1x256x256, .f32⟩ : BufTy).Contents (Elt F) → (⟨S64x3x256x256, .f32⟩ : BufTy).Contents (Elt F)),
    StableHlo.binary main_v43 main_v45 main_v46 (mulf : (⟨S64x3x256x256, .f32⟩ : BufTy).Contents (Elt F) → (⟨S64x3x256x256, .f32⟩ : BufTy).Contents (Elt F) → (⟨S64x3x256x256, .f32⟩ : BufTy).Contents (Elt F)),
    StableHlo.binary main_v42 main_v46 main_v47 (addf : (⟨S64x3x256x256, .f32⟩ : BufTy).Contents (Elt F) → (⟨S64x3x256x256, .f32⟩ : BufTy).Contents (Elt F) → (⟨S64x3x256x256, .f32⟩ : BufTy).Contents (Elt F)),
    StableHlo.unary main_v6 main_v48 ((extractStridedSlice S64x3x256x256 ![0, 0, 2, 2] · slices_S64x3x258x258_S64x3x256x256_0_0_2_2) : (⟨S64x3x258x258, .f32⟩ : BufTy).Contents (Elt F) → (⟨S64x3x256x256, .f32⟩ : BufTy).Contents (Elt F)),
    StableHlo.unary main_v5 main_v49 ((extractStridedSlice S64x1x256x256 ![0, 8, 0, 0] · slices_S64x9x256x256_S64x1x256x256_0_8_0_0) : (⟨S64x9x256x256, .f32⟩ : BufTy).Contents (Elt F) → (⟨S64x1x256x256, .f32⟩ : BufTy).Contents (Elt F)),
    StableHlo.unary main_v49 main_v50 (broadcastInDim S64x3x256x256 ![0, 1, 2, 3] bcast_S64x1x256x256_S64x3x256x256_0_1_2_3 : (⟨S64x1x256x256, .f32⟩ : BufTy).Contents (Elt F) → (⟨S64x3x256x256, .f32⟩ : BufTy).Contents (Elt F)),
    StableHlo.binary main_v48 main_v50 main_v51 (mulf : (⟨S64x3x256x256, .f32⟩ : BufTy).Contents (Elt F) → (⟨S64x3x256x256, .f32⟩ : BufTy).Contents (Elt F) → (⟨S64x3x256x256, .f32⟩ : BufTy).Contents (Elt F)),
    StableHlo.binary main_v47 main_v51 main_v52 (addf : (⟨S64x3x256x256, .f32⟩ : BufTy).Contents (Elt F) → (⟨S64x3x256x256, .f32⟩ : BufTy).Contents (Elt F) → (⟨S64x3x256x256, .f32⟩ : BufTy).Contents (Elt F)) ]

theorem ops_split : (ops : List (HloOp τ sig (Elt F))) = opsNorm ++ (opsPad ++ opsTaps) := rfl

/-- @main is the three stretches one after the other, by unfolding alone (the called functions' bodies are straight
    lines too). -/
theorem main_stretches (c : Dev nD) :
    main (F := F) c = Pipeline.chainK [seq opsNorm, seq opsPad] (seq opsTaps) := by
  chain_rfl

/-- So @main is the one straight line. -/
theorem main_eq (c : Dev nD) : main (F := F) c = seq ops := by
  rw [ops_split, seq_append, seq_append]
  exact main_stretches c

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨StableHlo.nullary_bufs_sub .., StableHlo.binary_bufs_sub .., StableHlo.unary_bufs_sub .., StableHlo.nullary_bufs_sub .., StableHlo.unary_bufs_sub .., StableHlo.binary_bufs_sub ..,
    StableHlo.unary_bufs_sub .., StableHlo.binary_bufs_sub .., StableHlo.nullary_bufs_sub .., StableHlo.unary_bufs_sub .., StableHlo.unary_bufs_sub .., StableHlo.unary_bufs_sub ..,
    StableHlo.binary_bufs_sub .., StableHlo.unary_bufs_sub .., StableHlo.unary_bufs_sub .., StableHlo.unary_bufs_sub .., StableHlo.binary_bufs_sub .., StableHlo.unary_bufs_sub ..,
    StableHlo.unary_bufs_sub .., StableHlo.unary_bufs_sub .., StableHlo.binary_bufs_sub .., StableHlo.unary_bufs_sub .., StableHlo.unary_bufs_sub .., StableHlo.unary_bufs_sub ..,
    StableHlo.binary_bufs_sub .., StableHlo.nullary_bufs_sub .., StableHlo.unary_bufs_sub .., StableHlo.unary_bufs_sub .., StableHlo.unary_bufs_sub .., StableHlo.unary_bufs_sub ..,
    StableHlo.binary_bufs_sub .., StableHlo.binary_bufs_sub .., StableHlo.unary_bufs_sub .., StableHlo.unary_bufs_sub .., StableHlo.unary_bufs_sub .., StableHlo.binary_bufs_sub ..,
    StableHlo.binary_bufs_sub .., StableHlo.unary_bufs_sub .., StableHlo.unary_bufs_sub .., StableHlo.unary_bufs_sub .., StableHlo.binary_bufs_sub .., StableHlo.binary_bufs_sub ..,
    StableHlo.unary_bufs_sub .., StableHlo.unary_bufs_sub .., StableHlo.unary_bufs_sub .., StableHlo.binary_bufs_sub .., StableHlo.binary_bufs_sub .., StableHlo.unary_bufs_sub ..,
    StableHlo.unary_bufs_sub .., StableHlo.unary_bufs_sub .., StableHlo.binary_bufs_sub .., StableHlo.binary_bufs_sub .., StableHlo.unary_bufs_sub .., StableHlo.unary_bufs_sub ..,
    StableHlo.unary_bufs_sub .., StableHlo.binary_bufs_sub .., StableHlo.binary_bufs_sub .., StableHlo.unary_bufs_sub .., StableHlo.unary_bufs_sub .., StableHlo.unary_bufs_sub ..,
    StableHlo.binary_bufs_sub .., StableHlo.binary_bufs_sub .., StableHlo.unary_bufs_sub .., StableHlo.unary_bufs_sub .., StableHlo.unary_bufs_sub .., StableHlo.binary_bufs_sub ..,
    StableHlo.binary_bufs_sub .., StableHlo.unary_bufs_sub .., StableHlo.unary_bufs_sub .., StableHlo.unary_bufs_sub .., StableHlo.binary_bufs_sub .., StableHlo.binary_bufs_sub ..⟩

/-- From any memory with zero counters, every weakly fair execution of @main terminates, and every final state has
    each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefTerms.lean ====
/-
  The reference's three stages as whole-array functions of what they read, in the host's own operations:
  the weight maps normalised over the channel axis, the image reflect-padded, and the nine window products
  accumulated from zero.
-/
import proofs.«118978_j32779190403118_1_alg».proof.Proof.Gen.ReferenceIdeal

noncomputable section

namespace Cert.ReferenceIdeal.RefTerms

open Cert.ReferenceIdeal Cert.ReferenceIdeal.Gen Idealize.ShloMosaic

variable {F : FTy → Type} [FloatOps F]

/-- Each weight map divided by the channels' sum plus the constant: the sum over axis 1 from zero, kept as a unit
    channel axis, the constant added, spread back over the nine channels, the quotient. -/
def normT (sg : FVec F S64x9x256x256 .f32) : FVec F S64x9x256x256 .f32 :=
  Host.divf sg (broadcastInDim S64x9x256x256 ![0, 1, 2, 3] bcast_S64x1x256x256_S64x9x256x256_0_1_2_3
    (addf (broadcastInDim S64x1x256x256 ![0, 2, 3] bcast_S64x256x256_S64x1x256x256_0_2_3
        (Host.reduceAdd sg (constant S_ .f32 0x00000000#32) reducesTo_S64x9x256x256_S64x256x256_d1 h_S_))
      (broadcastInDim S64x1x256x256 ![] bcast_S_S64x1x256x256 (constant S_ .f32 0x3089705F#32))))

/-- Row 1 of the image flipped onto its top: one new row above the 256. -/
def padTop {F : FTy → Type} [FloatOps F] (x : FVec F S64x3x256x256 .f32) : FVec F S64x3x257x256 .f32 :=
  concatenate S64x3x257x256 2 [⟨S64x3x1x256, Host.reverse [2] (extractStridedSlice S64x3x1x256 ![0, 0, 1, 0] x slices_S64x3x256x256_S64x3x1x256_0_0_1_0)⟩, ⟨S64x3x256x256, x⟩] concatenates_S64x3x1x256_S64x3x256x256_S64x3x257x256_d2

/-- Row 255 of that array (row 254 of the image) flipped onto its bottom. -/
def padBottom {F : FTy → Type} [FloatOps F] (v : FVec F S64x3x257x256 .f32) : FVec F S64x3x258x256 .f32 :=
  concatenate S64x3x258x256 2 [⟨S64x3x257x256, v⟩, ⟨S64x3x1x256, Host.reverse [2] (extractStridedSlice S64x3x1x256 ![0, 0, 255, 0] v slices_S64x3x257x256_S64x3x1x256_0_0_255_0)⟩] concatenates_S64x3x257x256_S64x3x1x256_S64x3x258x256_d2

/-- Column 1 flipped onto the left. -/
def padLeft {F : FTy → Type} [FloatOps F] (v : FVec F S64x3x258x256 .f32) : FVec F S64x3x258x257 .f32 :=
  concatenate S64x3x258x257 3 [⟨S64x3x258x1, Host.reverse [3] (extractStridedSlice S64x3x258x1 ![0, 0, 0, 1] v slices_S64x3x258x256_S64x3x258x1_0_0_0_1)⟩, ⟨S64x3x258x256, v⟩] concatenates_S64x3x258x1_S64x3x258x256_S64x3x258x257_d3

/-- Column 255 of that array (column 254 of the image) flipped onto the right. -/
def padRight {F : FTy → Type} [FloatOps F] (v : FVec F S64x3x258x257 .f32) : FVec F S64x3x258x258 .f32 :=
  concatenate S64x3x258x258 3 [⟨S64x3x258x257, v⟩, ⟨S64x3x258x1, Host.reverse [3] (extractStridedSlice S64x3x258x1 ![0, 0, 0, 255] v slices_S64x3x258x257_S64x3x258x1_0_0_0_255)⟩] concatenates_S64x3x258x257_S64x3x258x1_S64x3x258x258_d3

/-- The image reflect-padded by one pixel on each side of its last two axes, as the padding function computes it:
    top, bottom, left, right. -/
def padT {F : FTy → Type} [FloatOps F] (x : FVec F S64x3x256x256 .f32) : FVec F S64x3x258x258 .f32 :=
  padRight (padLeft (padBottom (padTop x)))

/-- The nine window products of the padded image `xp` and the normalised weights `sn`, accumulated from zero in
    row-major order of the offsets: window (di, dj) of the image times channel 3·di + dj spread over the three image
    channels. -/
def tapsT (xp : FVec F S64x3x258x258 .f32) (sn : FVec F S64x9x256x256 .f32) : FVec F S64x3x256x256 .f32 :=
  addf (addf (addf (addf (addf (addf (addf (addf (addf (broadcastInDim S64x3x256x256 ![] bcast_S_S64x3x256x256 (constant S_ .f32 0x00000000#32))
      (mulf (extractStridedSlice S64x3x256x256 ![0, 0, 0, 0] xp slices_S64x3x258x258_S64x3x256x256_0_0_0_0) (broadcastInDim S64x3x256x256 ![0, 1, 2, 3] bcast_S64x1x256x256_S64x3x256x256_0_1_2_3 (extractStridedSlice S64x1x256x256 ![0, 0, 0, 0] sn slices_S64x9x256x256_S64x1x256x256_0_0_0_0))))
      (mulf (extractStridedSlice S64x3x256x256 ![0, 0, 0, 1] xp slices_S64x3x258x258_S64x3x256x256_0_0_0_1) (broadcastInDim S64x3x256x256 ![0, 1, 2, 3] bcast_S64x1x256x256_S64x3x256x256_0_1_2_3 (extractStridedSlice S64x1x256x256 ![0, 1, 0, 0] sn slices_S64x9x256x256_S64x1x256x256_0_1_0_0))))
      (mulf (extractStridedSlice S64x3x256x256 ![0, 0, 0, 2] xp slices_S64x3x258x258_S64x3x256x256_0_0_0_2) (broadcastInDim S64x3x256x256 ![0, 1, 2, 3] bcast_S64x1x256x256_S64x3x256x256_0_1_2_3 (extractStridedSlice S64x1x256x256 ![0, 2, 0, 0] sn slices_S64x9x256x256_S64x1x256x256_0_2_0_0))))
      (mulf (extractStridedSlice S64x3x256x256 ![0, 0, 1, 0] xp slices_S64x3x258x258_S64x3x256x256_0_0_1_0) (broadcastInDim S64x3x256x256 ![0, 1, 2, 3] bcast_S64x1x256x256_S64x3x256x256_0_1_2_3 (extractStridedSlice S64x1x256x256 ![0, 3, 0, 0] sn slices_S64x9x256x256_S64x1x256x256_0_3_0_0))))
      (mulf (extractStridedSlice S64x3x256x256 ![0, 0, 1, 1] xp slices_S64x3x258x258_S64x3x256x256_0_0_1_1) (broadcastInDim S64x3x256x256 ![0, 1, 2, 3] bcast_S64x1x256x256_S64x3x256x256_0_1_2_3 (extractStridedSlice S64x1x256x256 ![0, 4, 0, 0] sn slices_S64x9x256x256_S64x1x256x256_0_4_0_0))))
      (mulf (extractStridedSlice S64x3x256x256 ![0, 0, 1, 2] xp slices_S64x3x258x258_S64x3x256x256_0_0_1_2) (broadcastInDim S64x3x256x256 ![0, 1, 2, 3] bcast_S64x1x256x256_S64x3x256x256_0_1_2_3 (extractStridedSlice S64x1x256x256 ![0, 5, 0, 0] sn slices_S64x9x256x256_S64x1x256x256_0_5_0_0))))
      (mulf (extractStridedSlice S64x3x256x256 ![0, 0, 2, 0] xp slices_S64x3x258x258_S64x3x256x256_0_0_2_0) (broadcastInDim S64x3x256x256 ![0, 1, 2, 3] bcast_S64x1x256x256_S64x3x256x256_0_1_2_3 (extractStridedSlice S64x1x256x256 ![0, 6, 0, 0] sn slices_S64x9x256x256_S64x1x256x256_0_6_0_0))))
      (mulf (extractStridedSlice S64x3x256x256 ![0, 0, 2, 1] xp slices_S64x3x258x258_S64x3x256x256_0_0_2_1) (broadcastInDim S64x3x256x256 ![0, 1, 2, 3] bcast_S64x1x256x256_S64x3x256x256_0_1_2_3 (extractStridedSlice S64x1x256x256 ![0, 7, 0, 0] sn slices_S64x9x256x256_S64x1x256x256_0_7_0_0))))
      (mulf (extractStridedSlice S64x3x256x256 ![0, 0, 2, 2] xp slices_S64x3x258x258_S64x3x256x256_0_0_2_2) (broadcastInDim S64x3x256x256 ![0, 1, 2, 3] bcast_S64x1x256x256_S64x3x256x256_0_1_2_3 (extractStridedSlice S64x1x256x256 ![0, 8, 0, 0] sn slices_S64x9x256x256_S64x1x256x256_0_8_0_0)))

end Cert.ReferenceIdeal.RefTerms

end
-- ==== Proof.RefOut.lean ====
/-
  The reference's run, read: the result buffer ends at the window sums of the padded image and the normalised
  weights — the three stages composed — and the two arguments end as launched.
-/
import proofs.«118978_j32779190403118_1_alg».proof.Proof.RefRun
import proofs.«118978_j32779190403118_1_alg».proof.Proof.RefTerms
import Idealize.ShloMosaic.Lib.Pipeline.Frame

noncomputable section

namespace Cert.ReferenceIdeal.RefOut

open Cert.ReferenceIdeal Cert.ReferenceIdeal.Gen Cert.ReferenceIdeal.RefRun Cert.ReferenceIdeal.RefTerms
open Idealize.ShloMosaic Idealize.ShloMosaic.TcCoe Idealize.SL.Sem Idealize.ShloMosaic.StableHlo

variable {F : FTy → Type} [FloatOps F]

/-- The operations before the call leave the normalised weights in their buffer, -/
theorem norm_eq (V : Valuation τ sig (Elt F)) :
    after opsNorm V (main_v5 : DevRef τ sig) = normT (V (main_arg1 : DevRef τ sig)) := by
  after_results_simp
  rfl

/-- and the image as it was. -/
theorem norm_arg0 (V : Valuation τ sig (Elt F)) :
    after opsNorm V (main_arg0 : DevRef τ sig) = V (main_arg0 : DevRef τ sig) := by
  after_results_simp

/-- The padding function's operations four by four: each group reads the previous group's result and leaves its own. -/
theorem padTop_eq (V : Valuation τ sig (Elt F)) :
    after opsPadTop V (main_call0_v3 : DevRef τ sig) = padTop (V (main_arg0 : DevRef τ sig)) := by
  after_results_simp
  rfl

theorem padBottom_eq (V : Valuation τ sig (Elt F)) :
    after opsPadBottom V (main_call0_v7 : DevRef τ sig) = padBottom (V (main_call0_v3 : DevRef τ sig)) := by
  after_results_simp
  rfl

theorem padLeft_eq (V : Valuation τ sig (Elt F)) :
    after opsPadLeft V (main_call0_v11 : DevRef τ sig) = padLeft (V (main_call0_v7 : DevRef τ sig)) := by
  after_results_simp
  rfl

theorem padRight_eq (V : Valuation τ sig (Elt F)) :
    after opsPadRight V (main_v6 : DevRef τ sig) = padRight (V (main_call0_v11 : DevRef τ sig)) := by
  after_results_simp
  rfl

/-- The padding function's operations leave its result at the padded image, -/
theorem pad_eq (V : Valuation τ sig (Elt F)) :
    after opsPad V (main_v6 : DevRef τ sig) = padT (V (main_arg0 : DevRef τ sig)) := by
  rw [opsPad_split, StableHlo.after_append, StableHlo.after_append, StableHlo.after_append, padRight_eq, padLeft_eq,
    padBottom_eq, padTop_eq]
  rfl

/-- and the normalised weights where they were. -/
theorem pad_v5 (V : Valuation τ sig (Elt F)) :
    after opsPad V (main_v5 : DevRef τ sig) = V (main_v5 : DevRef τ sig) := by
  after_results_simp

/-- The operations after the call leave the accumulated window products of the padded image and the normalised
    weights in the result buffer. -/
theorem taps_eq (V : Valuation τ sig (Elt F)) :
    after opsTaps V (main_v52 : DevRef τ sig) = tapsT (V (main_v6 : DevRef τ sig)) (V (main_v5 : DevRef τ sig)) := by
  after_results_simp
  rfl

/-- The fold at the result buffer is the stages' composition of the fold's start at the two arguments. -/
theorem out_eq (V : Valuation τ sig (Elt F)) :
    after ops V (main_v52 : DevRef τ sig)
      = tapsT (padT (V (main_arg0 : DevRef τ sig))) (normT (V (main_arg1 : DevRef τ sig))) := by
  rw [ops_split, StableHlo.after_append, StableHlo.after_append, taps_eq, pad_eq, pad_v5, norm_eq, norm_arg0]

theorem arg0_eq (V : Valuation τ sig (Elt F)) : after ops V (main_arg0 : DevRef τ sig) = V (main_arg0 : DevRef τ sig) := by
  after_results_simp

theorem arg1_eq (V : Valuation τ sig (Elt F)) : after ops V (main_arg1 : DevRef τ sig) = V (main_arg1 : DevRef τ sig) := by
  after_results_simp

/-- Every weakly fair execution of the reference terminates with its result at the stages' composition of the
    argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v52)
          = tapsT (padT (m ((c.tc : Thread nD τ).loc main_arg0))) (normT (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v52).trans (out_eq _), (h c main_arg0).trans (arg0_eq _),
      (h c main_arg1).trans (arg1_eq _)⟩)
    (run_main m ρ)

end Cert.ReferenceIdeal.RefOut

end
-- ==== Proof.RefValue.lean ====
/-
  The reference's result at an index is the 3×3 filter of the padded image and the weight maps.
  The normalised weights at (b, k, p, q) are weight map k there over the channels' sum plus the constant (the host's
  sum starts from zero, which adds nothing); window (di, dj) of the padded image at (b, c, p, q) is the image at
  (b, c, di + p, dj + q); channel k of the weights spread over the image channels is the weight at (b, k, p, q); so the
  accumulated products are the filter's sum term by term, in the same order.
-/
import proofs.«118978_j32779190403118_1_alg».proof.Proof.RefTerms
import proofs.«118978_j32779190403118_1_alg».proof.Proof.FilterSpec

noncomputable section

namespace Cert.ReferenceIdeal.RefValue

open Cert.ReferenceIdeal Cert.ReferenceIdeal.Gen Cert.ReferenceIdeal.RefTerms Cert.LibChannels Cert.Filter
open Idealize.ShloMosaic Idealize.ShloMosaic.ValueIdx

/-- The normalised weights at an index. -/
theorem normT_apply (sg : FVec Ideal S64x9x256x256 .f32) (b : Fin 64) (k : Fin 9) (p q : Fin 256) :
    normT (F := Ideal) sg (ix4 b k p q) = wgt sg b p q k := by
  unfold normT wgt
  refine congrArg (Ideal.div (sg (ix4 b k p q))) ?_
  refine (broadcastInDim_channels_apply _ _ b k p q).trans ?_
  refine congrArg (· + Ideal.ofBits .f32 0x3089705F#32) ?_
  refine (broadcastInDim_unitChannel_apply _ _ b p q).trans ?_
  refine (hostReduceAdd_channels_apply sg _ _ _ (by decide) b p q).trans ?_
  show Ideal.ofBits .f32 0x00000000#32 + _ = _
  rw [Ideal.ofBits_zero_f32, zero_add]

/-- The accumulated window products at an index, for any weights array. -/
theorem tapsT_apply (xp : FVec Ideal S64x3x258x258 .f32) (sn : FVec Ideal S64x9x256x256 .f32) (b : Fin 64) (c : Fin 3)
    (p q : Fin 256) : tapsT (F := Ideal) xp sn (ix4 b c p q) = taps xp (fun k => sn (ix4 b k p q)) b c p q := by
  unfold tapsT taps
  simp only [addf_apply, mulf_apply, window_eq]
  iterate 9 rw [channel_broadcastInDim_eq]
  rfl

/-- The reference's result is the filter of the padded image and the weight maps. -/
theorem result_eq (xp : FVec Ideal S64x3x258x258 .f32) (sg : FVec Ideal S64x9x256x256 .f32) :
    tapsT (F := Ideal) xp (normT sg) = fun i => filt xp sg i := by
  funext i
  obtain ⟨b, c, p, q, rfl⟩ : ∃ (b : Fin 64) (c : Fin 3) (p q : Fin 256), i = ix4 b c p q := ⟨i 0, i 1, i 2, i 3, eq_ix4 i⟩
  rw [tapsT_apply, filt_ix4]
  exact congrArg (fun w => taps xp w b c p q) (funext fun k => normT_apply sg b k p q)

end Cert.ReferenceIdeal.RefValue

end
-- ==== Proof.lean ====
/-
  A per-pixel 3×3 filter whose nine weights are normalised at every pixel: the kernel against its reference,
  equal at every index on the extended reals.
  Both programs reflect-pad the image on the host with the same padding function, divide each of the nine weight
  maps by the sum of the nine plus a small constant, and add up, from zero and in row-major order of the window, the
  nine products of a shifted window of the padded image with one normalised weight map. The kernel does the last two
  steps on blocks of two images per grid point; the reference on the whole arrays. At an image the result reads that
  image only, so the kernel's 32 blocks are the blocks of the reference's result. The two sums of nine weights — the
  vector unit's reduction and the host's, which starts from zero — are the same finite sum; no other law is needed,
  and the precondition is never opened. The ideal pass's ledger is empty, so the sanctioned-idealization conjunct is `True`.
-/
import proofs.«118978_j32779190403118_1_alg».proof.Defs
import proofs.«118978_j32779190403118_1_alg».proof.Proof.Gen.Kernel
import proofs.«118978_j32779190403118_1_alg».proof.Proof.Gen.Kernel.Skeleton
import proofs.«118978_j32779190403118_1_alg».proof.Proof.Gen.Kernel.Launch
import proofs.«118978_j32779190403118_1_alg».proof.Proof.Gen.Kernel.Points
import proofs.«118978_j32779190403118_1_alg».proof.Proof.Gen.Kernel.Frame
import proofs.«118978_j32779190403118_1_alg».proof.Proof.Gen.KernelIdeal
import proofs.«118978_j32779190403118_1_alg».proof.Proof.Gen.KernelIdeal.Skeleton
import proofs.«118978_j32779190403118_1_alg».proof.Proof.Gen.KernelIdeal.Launch
import proofs.«118978_j32779190403118_1_alg».proof.Proof.Gen.KernelIdeal.Points
import proofs.«118978_j32779190403118_1_alg».proof.Proof.Gen.KernelIdeal.Frame
import proofs.«118978_j32779190403118_1_alg».proof.Proof.Gen.ReferenceIdeal
import proofs.«118978_j32779190403118_1_alg».proof.Proof.Gen.Pre_finite_inputs
import proofs.«118978_j32779190403118_1_alg».proof.Proof.KernelValue
import proofs.«118978_j32779190403118_1_alg».proof.Proof.RefOut
import proofs.«118978_j32779190403118_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefOut.run (F := Ideal) m ρ)

theorem preserves : Cert.preserves_Kernel_KernelIdeal := trivial

/-- The two programs pad the image with the same operations. -/
theorem pad_eq (x : FVec Ideal Cert.ReferenceIdeal.S64x3x256x256 .f32) :
    Cert.ReferenceIdeal.RefTerms.padT x = Cert.KernelIdeal.KValue.padT x := rfl

/-- Both runs end with the filter of the padded image and the weight maps: the kernel's by its blocks, the
    reference's by its three stages read at an index. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefOut.run (F := Ideal) m' ρ')
  rw [(hagree c).1, (hagree c).2, Cert.ReferenceIdeal.RefValue.result_eq, pad_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
